-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S2 .f32) (main_v63 : IVec S_ 1) (main_v67 : IVec S_ 1) : IVec S_ 1 :=
  let main_v68 : IVec S_ 1 := andi main_v63 main_v67
  let main_v69 : FVec F S2 .f32 := Host.absf main_arg15
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg12 : FVec F S64 .f32) (main_arg13 : FVec F S64 .f32) (main_arg14 : FVec F S64x2 .f32) (main_arg15 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x2 .f32 := Host.absf main_arg14
  let main_cst_24 : FVec F S_ .f32 := constant S_ .f32 0x7F800000#32
  let main_v65 : FVec F S64x2 .f32 := broadcastInDim S64x2 ![] bcast_S_S64x2 main_cst_24
  let main_v66 : IVec S64x2 1 := cmpf .olt main_v64 main_v65
  let main_c_25 : IVec S_ 1 := constantI S_ 1 1#1
  let main_v67 : IVec S_ 1 := (fun x v => Host.reduce IntOp.andi x v reducesTo_S64x2_S_d0_1 h_S_) main_v66 main_c_25
  fn_part4 (F := F) main_arg15 main_v63 main_v67

def fn_part2 {F : FTy → Type} [FloatOps F] (main_arg8 : FVec F S128 .f32) (main_arg9 : FVec F S128 .f32) (main_arg10 : FVec F S64 .f32) (main_arg11 : FVec F S64 .f32) (main_arg12 : FVec F S64 .f32) (main_arg13 : FVec F S64 .f32) (main_arg14 : FVec F S64x2 .f32) (main_arg15 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_v48 main_v49 main_v50

def fn_part1 {F : FTy → Type} [FloatOps F] (main_arg5 : FVec F S64 .f32) (main_arg6 : FVec F S128 .f32) (main_arg7 : FVec F S128 .f32) (main_arg8 : FVec F S128 .f32) (main_arg9 : FVec F S128 .f32) (main_arg10 : FVec F S64 .f32) (main_arg11 : FVec F S64 .f32) (main_arg12 : FVec F S64 .f32) (main_arg13 : FVec F S64 .f32) (main_arg14 : FVec F S64x2 .f32) (main_arg15 : FVec F S2 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x256 .f32) (main_arg1 : IVec S2x1600000 32) (main_arg2 : FVec F S256x128 .f32) (main_arg3 : FVec F S128 .f32) (main_arg4 : FVec F S128x64 .f32) (main_arg5 : FVec F S64 .f32) (main_arg6 : FVec F S128 .f32) (main_arg7 : FVec F S128 .f32) (main_arg8 : FVec F S128 .f32) (main_arg9 : FVec F S128 .f32) (main_arg10 : FVec F S64 .f32) (main_arg11 : FVec F S64 .f32) (main_arg12 : FVec F S64 .f32) (main_arg13 : FVec F S64 .f32) (main_arg14 : FVec F S64x2 .f32) (main_arg15 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x128 : Shape := ⟨2, ![50000, 128]⟩
abbrev S5000x256 : Shape := ⟨2, ![5000, 256]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S50000x64 : Shape := ⟨2, ![50000, 64]⟩
abbrev S5000x64 : Shape := ⟨2, ![5000, 64]⟩
abbrev S1600000x64 : Shape := ⟨2, ![1600000, 64]⟩
abbrev S1x64 : Shape := ⟨2, ![1, 64]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 104
  | .vmem => 38
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64x2, .f32⟩
  | .hbm, ⟨15, _⟩ => ⟨S2, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .f32⟩
  | .hbm, ⟨21, _⟩ => ⟨S50000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S_, .f32⟩
  | .hbm, ⟨31, _⟩ => ⟨S1600000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000, .f32⟩
  | .hbm, ⟨55, _⟩ => ⟨S1600000, .f32⟩
  | .hbm, ⟨56, _⟩ => ⟨S1600000x1, .f32⟩
  | .hbm, ⟨57, _⟩ => ⟨S50000, .f32⟩
  | .hbm, ⟨58, _⟩ => ⟨S50000x1, .f32⟩
  | .hbm, ⟨59, _⟩ => ⟨S50000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S1600000x128, .f32⟩
  | .hbm, ⟨70, _⟩ => ⟨S1600000x128, .f32⟩
  | .hbm, ⟨71, _⟩ => ⟨S_, .f32⟩
  | .hbm, ⟨72, _⟩ => ⟨S50000x128, .f32⟩
  | .hbm, ⟨73, _⟩ => ⟨S1600000x1, .i32⟩
  | .hbm, ⟨74, _⟩ => ⟨S50000x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S50000x128, .f32⟩
  | .hbm, ⟨81, _⟩ => ⟨S50000x64, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x64, .f32⟩
  | .hbm, ⟨91, _⟩ => ⟨S1600000x64, .f32⟩
  | .hbm, ⟨92, _⟩ => ⟨S1600000x64, .f32⟩
  | .hbm, ⟨93, _⟩ => ⟨S_, .f32⟩
  | .hbm, ⟨94, _⟩ => ⟨S50000x64, .f32⟩
  | .hbm, ⟨95, _⟩ => ⟨S1600000x1, .i32⟩
  | .hbm, ⟨96, _⟩ => ⟨S50000x64, .f32⟩
  | .hbm, ⟨97, _⟩ => ⟨S1x64, .f32⟩
  | .hbm, ⟨98, _⟩ => ⟨S1x64, .f32⟩
  | .hbm, ⟨99, _⟩ => ⟨S1x64, .f32⟩
  | .hbm, ⟨100, _⟩ => ⟨S1x64, .f32⟩
  | .hbm, ⟨101, _⟩ => ⟨S1x64, .f32⟩
  | .hbm, ⟨102, _⟩ => ⟨S1x2, .f32⟩
  | .hbm, ⟨103, _⟩ => ⟨S50000x2, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S64x2, .f32⟩
  | .local _ .vmem, ⟨35, _⟩ => ⟨S1x2, .f32⟩
  | .local _ .vmem, ⟨36, _⟩ => ⟨S5000x2, .f32⟩
  | .local _ .vmem, ⟨37, _⟩ => ⟨S5000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_3 : Ref sig .tc := ⟨.hbm, 37, rfl⟩
abbrev main_v16 : Ref sig .tc := ⟨.hbm, 38, rfl⟩
abbrev main_v17 : Ref sig .tc := ⟨.hbm, 39, rfl⟩
abbrev main_c_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_10 : Ref sig .tc := ⟨.hbm, 82, rfl⟩
abbrev main_v54 : Ref sig .tc := ⟨.hbm, 83, rfl⟩
abbrev main_v55 : Ref sig .tc := ⟨.hbm, 84, rfl⟩
abbrev main_c_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg9_0 : Ref sig .tc := ⟨.vmem, 35, rfl⟩
abbrev cc3_stg10_0 : Ref sig .tc := ⟨.vmem, 36, rfl⟩
abbrev cc3_stg10_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem9_0 : DmaSem sig := 35
abbrev cc3_sem10_0 : DmaSem sig := 36
abbrev cc3_sem10_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x2 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x2 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S5000x2 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  shapeCasts_S64_S1x64 : S64.ShapeCasts S1x64
  shapeCasts_S2_S1x2 : S2.ShapeCasts S1x2
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S5000x256_S256x128_S5000x128_1_0_0_1_n_n_wf : DotDims.WF S5000x256 S256x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x64_S5000x64_1_0_0_1_n_n_wf : DotDims.WF S5000x128 S128x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x2.size a ≤ S64x2.size a
  hwx3_8 : ∀ i : grid3.Coords, EltTy.bits .f32 = 32 ∨ (Rect.block (s := S64x2) S64x2.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x2.size a ≤ S1x2.size a
  hwx3_9 : ∀ i : grid3.Coords, EltTy.bits .f32 = 32 ∨ (Rect.block (s := S1x2) S1x2.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S5000x2.size a ≤ S50000x2.size a
  hwx3_10 : ∀ i : grid3.Coords, EltTy.bits .f32 = 32 ∨ (Rect.block (s := S50000x2) S5000x2.size (cc3_transform_10 i) (hinb3_10 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v52) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v69) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v70) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg14) S64x2.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v71) S1x2.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v72) S5000x2.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S50000x128 : Shape := ⟨2, ![50000, 128]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S50000x64 : Shape := ⟨2, ![50000, 64]⟩
abbrev S1600000x64 : Shape := ⟨2, ![1600000, 64]⟩
abbrev S1x64 : Shape := ⟨2, ![1, 64]⟩
abbrev S50000x2 : Shape := ⟨2, ![50000, 2]⟩
abbrev S1x2 : Shape := ⟨2, ![1, 2]⟩

abbrev nBuf : Space → Nat
  | .hbm => 184
  | .vmem => 0
  | .smem => 0
  | _ => 0

abbrev hbmTy0_0 (i : Nat) : BufTy := match i % 128 with
  | 0 => ⟨S50000x256, .f32⟩
  | 1 => ⟨S2x1600000, .i32⟩
  | 2 => ⟨S256x128, .f32⟩
  | 3 => ⟨S128, .f32⟩
  | 4 => ⟨S128x64, .f32⟩
  | 5 => ⟨S64, .f32⟩
  | 6 => ⟨S128, .f32⟩
  | 7 => ⟨S128, .f32⟩
  | 8 => ⟨S128, .f32⟩
  | 9 => ⟨S128, .f32⟩
  | 10 => ⟨S64, .f32⟩
  | 11 => ⟨S64, .f32⟩
  | 12 => ⟨S64, .f32⟩
  | 13 => ⟨S64, .f32⟩
  | 14 => ⟨S64x2, .f32⟩
  | 15 => ⟨S2, .f32⟩
  | 16 => ⟨S1x1600000, .i32⟩
  | 17 => ⟨S1600000, .i32⟩
  | 18 => ⟨S1x1600000, .i32⟩
  | 19 => ⟨S1600000, .i32⟩
  | 20 => ⟨S50000x128, .f32⟩
  | 21 => ⟨S_, .f32⟩
  | 22 => ⟨S50000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S_, .f32⟩
  | 32 => ⟨S1600000, .f32⟩
  | 33 => ⟨S50000, .f32⟩
  | 34 => ⟨S_, .f32⟩
  | 35 => ⟨S50000, .f32⟩
  | 36 => ⟨S50000, .f32⟩
  | 37 => ⟨S50000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S1600000, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S1600000x1, .f32⟩
  | 67 => ⟨S1600000x128, .f32⟩
  | 68 => ⟨S1600000x128, .f32⟩
  | 69 => ⟨S_, .f32⟩
  | 70 => ⟨S50000x128, .f32⟩
  | 71 => ⟨S1600000x1, .i32⟩
  | 72 => ⟨S50000x128, .f32⟩
  | 73 => ⟨S50000, .f32⟩
  | 74 => ⟨S50000x1, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S128, .f32⟩
  | 89 => ⟨S128, .f32⟩
  | 90 => ⟨S128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S50000x64, .f32⟩
  | 101 => ⟨S_, .f32⟩
  | 102 => ⟨S50000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S_, .f32⟩
  | 112 => ⟨S1600000, .f32⟩
  | 113 => ⟨S50000, .f32⟩
  | 114 => ⟨S_, .f32⟩
  | 115 => ⟨S50000, .f32⟩
  | 116 => ⟨S50000, .f32⟩
  | 117 => ⟨S50000, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000, .f32⟩
  | 127 => ⟨S_, .i32⟩
  | _ => ⟨S50000x256, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000, .f32⟩
  | 8 => ⟨S1600000, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x64, .f32⟩
  | 18 => ⟨S1600000x1, .f32⟩
  | 19 => ⟨S1600000x64, .f32⟩
  | 20 => ⟨S1600000x64, .f32⟩
  | 21 => ⟨S_, .f32⟩
  | 22 => ⟨S50000x64, .f32⟩
  | 23 => ⟨S1600000x1, .i32⟩
  | 24 => ⟨S50000x64, .f32⟩
  | 25 => ⟨S50000, .f32⟩
  | 26 => ⟨S50000x1, .f32⟩
  | 27 => ⟨S50000x64, .f32⟩
  | 28 => ⟨S50000x64, .f32⟩
  | 29 => ⟨S50000x64, .f32⟩
  | 30 => ⟨S1x64, .f32⟩
  | 31 => ⟨S50000x64, .f32⟩
  | 32 => ⟨S50000x64, .f32⟩
  | 33 => ⟨S_, .f32⟩
  | 34 => ⟨S50000x64, .f32⟩
  | 35 => ⟨S50000x64, .f32⟩
  | 36 => ⟨S1x64, .f32⟩
  | 37 => ⟨S50000x64, .f32⟩
  | 38 => ⟨S50000x64, .f32⟩
  | 39 => ⟨S_, .f32⟩
  | 40 => ⟨S64, .f32⟩
  | 41 => ⟨S64, .f32⟩
  | 42 => ⟨S64, .f32⟩
  | 43 => ⟨S1x64, .f32⟩
  | 44 => ⟨S50000x64, .f32⟩
  | 45 => ⟨S50000x64, .f32⟩
  | 46 => ⟨S1x64, .f32⟩
  | 47 => ⟨S50000x64, .f32⟩
  | 48 => ⟨S50000x64, .f32⟩
  | 49 => ⟨S1x64, .f32⟩
  | 50 => ⟨S50000x64, .f32⟩
  | 51 => ⟨S50000x64, .f32⟩
  | 52 => ⟨S50000x2, .f32⟩
  | 53 => ⟨S1x2, .f32⟩
  | 54 => ⟨S50000x2, .f32⟩
  | 55 => ⟨S50000x2, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call0_cst : Ref sig .tc := ⟨.hbm, 81, rfl⟩
abbrev main_call0_v0 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_11 : Ref sig .tc := ⟨.hbm, 101, rfl⟩
abbrev main_v70 : Ref sig .tc := ⟨.hbm, 102, rfl⟩
abbrev main_c_12 : Ref sig .tc := ⟨.hbm, 103, rfl⟩
abbrev main_v71 : Ref sig .tc := ⟨.hbm, 104, rfl⟩
abbrev main_v72 : Ref sig .tc := ⟨.hbm, 105, rfl⟩
abbrev main_c_13 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_14 : Ref sig .tc := ⟨.hbm, 111, rfl⟩
abbrev main_v77 : Ref sig .tc := ⟨.hbm, 112, rfl⟩
abbrev main_v78 : Ref sig .tc := ⟨.hbm, 113, rfl⟩
abbrev main_cst_15 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_16 : Ref sig .tc := ⟨.hbm, 118, rfl⟩
abbrev main_v82 : Ref sig .tc := ⟨.hbm, 119, rfl⟩
abbrev main_v83 : Ref sig .tc := ⟨.hbm, 120, rfl⟩
abbrev main_c_17 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_18 : Ref sig .tc := ⟨.hbm, 127, rfl⟩
abbrev main_v89 : Ref sig .tc := ⟨.hbm, 128, rfl⟩
abbrev main_v90 : Ref sig .tc := ⟨.hbm, 129, rfl⟩
abbrev main_c_19 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c_20 : Ref sig .tc := ⟨.hbm, 137, rfl⟩
abbrev main_v97 : Ref sig .tc := ⟨.hbm, 138, rfl⟩
abbrev main_v98 : Ref sig .tc := ⟨.hbm, 139, rfl⟩
abbrev main_c_21 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_22 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_call1_cst : Ref sig .tc := ⟨.hbm, 161, rfl⟩
abbrev main_call1_v0 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_23 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x256_S256x128_S50000x128_1_0_0_1_n_n_wf : DotDims.WF S50000x256 S256x128 S50000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x2_S50000x2_1_0_0_1_n_n_wf : DotDims.WF S50000x64 S64x2 S50000x2 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.KernelRun.lean ====
/-
  The idealized kernel's run with its result array named.

  @main is seven segments: three stretches of host operations and four grid regions. The buffer contents at
  each segment boundary form a fold from the launch memory: a host stretch applies its operations, a region
  replaces each of its windows' arrays by what its write-backs leave and keeps every other buffer. After the
  last segment every unscoped buffer holds the last boundary's contents. Read at the sixteen argument arrays
  this is the frame; read also at the result array it says where the result's value is to be found: in the
  last boundary's contents at that array.
-/
import proofs.«159547_j46755013984836_2_alg».proof.Defs
import proofs.«159547_j46755013984836_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates without a fault; the
    result array ends holding the last segment boundary's contents at that array, and every argument array
    ends as launched. -/
theorem run_result : θ_run defs (onTc (τ := τ) (main (F := F))) ⟨m, fun _ => 0, ρ⟩ (fun r => ∀ c : Dev nD,
      r.2.mem ((c.tc : Thread nD τ).loc main_v72) = W7 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v72 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c)⟩)

end Cert.KernelIdeal.Whole

end
-- ==== Proof.Stages0.lean ====
/-
  The buffers after the first stretch of host operations.

  Before the first region the host computes, from the edge array alone, the source and destination index
  vectors, the inverse square root dinv of each node's degree (the count of edges arriving at it, plus one),
  the per-edge weight dinv[src] · dinv[dst] as a column, and dinv² as a column. Each of these buffers is the
  same composition of the same host operations as the corresponding stage of the reference, applied to the
  same edge array; the two columns are the reference's vectors reshaped. A host stretch leaves every buffer it
  does not write as it found it.
-/
import proofs.«159547_j46755013984836_2_alg».proof.Proof.Gen.KernelIdeal.Frame
import proofs.«159547_j46755013984836_2_alg».proof.Proof.Gen.ReferenceIdeal.Read
import Idealize.ShloMosaic.Lib.StableHlo.Run
import Idealize.ShloMosaic.PureOps.Ideal
import Idealize.ShloMosaic.Lib.ValueIdx

set_option maxRecDepth 16384

noncomputable section

open Idealize.ShloMosaic Idealize.ShloMosaic.TcCoe Idealize.SL.Sem
open scoped BigOperators

namespace Cert.KernelIdeal.Whole

open Cert.KernelIdeal Cert.KernelIdeal.Gen Idealize.ShloMosaic.StableHlo

/-! ## What each host stretch leaves alone -/

section Keeps
variable {F : FTy → Type} [FloatOps F]

theorem keeps0_arg0 (W : Valuation τ sig (Elt F)) :
    StableHlo.after (hostOps0 (F := F)) W (Proc.devRef .tc main_arg0) = W (Proc.devRef .tc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps0_arg1 (W : Valuation τ sig (Elt F)) :
    StableHlo.after (hostOps0 (F := F)) W (Proc.devRef .tc main_arg1) = W (Proc.devRef .tc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps0_arg2 (W : Valuation τ sig (Elt F)) :
    StableHlo.after (hostOps0 (F := F)) W (Proc.devRef .tc main_arg2) = W (Proc.devRef .tc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps0_arg3 (W : Valuation τ sig (Elt F)) :
    StableHlo.after (hostOps0 (F := F)) W (Proc.devRef .tc main_arg3) = W (Proc.devRef .tc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps0_arg4 (W : Valuation τ sig (Elt F)) :
    StableHlo.after (hostOps0 (F := F)) W (Proc.devRef .tc main_arg4) = W (Proc.devRef .tc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps0_arg5 (W : Valuation τ sig (Elt F)) :
    StableHlo.after (hostOps0 (F := F)) W (Proc.devRef .tc main_arg5) = W (Proc.devRef .tc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps0_arg6 (W : Valuation τ sig (Elt F)) :
    StableHlo.after (hostOps0 (F := F)) W (Proc.devRef .tc main_arg6) = W (Proc.devRef .tc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps0_arg7 (W : Valuation τ sig (Elt F)) :
    StableHlo.after (hostOps0 (F := F)) W (Proc.devRef .tc main_arg7) = W (Proc.devRef .tc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps0_arg8 (W : Valuation τ sig (Elt F)) :
    StableHlo.after (hostOps0 (F := F)) W (Proc.devRef .tc main_arg8) = W (Proc.devRef .tc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps0_arg9 (W : Valuation τ sig (Elt F)) :
    StableHlo.after (hostOps0 (F := F)) W (Proc.devRef .tc main_arg9) = W (Proc.devRef .tc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps0_arg10 (W : Valuation τ sig (Elt F)) :
    StableHlo.after (hostOps0 (F := F)) W (Proc.devRef .tc main_arg10) = W (Proc.devRef .tc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps0_arg11 (W : Valuation τ sig (Elt F)) :
    StableHlo.after (hostOps0 (F := F)) W (Proc.devRef .tc main_arg11) = W (Proc.devRef .tc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps0_arg12 (W : Valuation τ sig (Elt F)) :
    StableHlo.after (hostOps0 (F := F)) W (Proc.devRef .tc main_arg12) = W (Proc.devRef .tc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps0_arg13 (W : Valuation τ sig (Elt F)) :
    StableHlo.after (hostOps0 (F := F)) W (Proc.devRef .tc main_arg13) = W (Proc.devRef .tc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps0_arg14 (W : Valuation τ sig (Elt F)) :
    StableHlo.after (hostOps0 (F := F)) W (Proc.devRef .tc main_arg14) = W (Proc.devRef .tc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps0_arg15 (W : Valuation τ sig (Elt F)) :
    StableHlo.after (hostOps0 (F := F)) W (Proc.devRef .tc main_arg15) = W (Proc.devRef .tc main_arg15) :=
  StableHlo.after_of_forall_not_mem (b := Proc.devRef .tc main_arg15) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keeps1_arg0 (W : Valuation τ sig (Elt F)) :
    StableHlo.after (hostOps1 (F := F)) W (Proc.devRef .tc main_arg0) = W (Proc.devRef .tc main_arg0) :=
  StableHlo.after_of_forall_not_mem (b := Proc.devRef .tc main_arg0) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_arg1 (W : Valuation τ sig (Elt F)) :
    StableHlo.after (hostOps1 (F := F)) W (Proc.devRef .tc main_arg1) = W (Proc.devRef .tc main_arg1) :=
  StableHlo.after_of_forall_not_mem (b := Proc.devRef .tc main_arg1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_arg2 (W : Valuation τ sig (Elt F)) :
    StableHlo.after (hostOps1 (F := F)) W (Proc.devRef .tc main_arg2) = W (Proc.devRef .tc main_arg2) :=
  StableHlo.after_of_forall_not_mem (b := Proc.devRef .tc main_arg2) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_arg3 (W : Valuation τ sig (Elt F)) :
    StableHlo.after (hostOps1 (F := F)) W (Proc.devRef .tc main_arg3) = W (Proc.devRef .tc main_arg3) :=
  StableHlo.after_of_forall_not_mem (b := Proc.devRef .tc main_arg3) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_arg4 (W : Valuation τ sig (Elt F)) :
    StableHlo.after (hostOps1 (F := F)) W (Proc.devRef .tc main_arg4) = W (Proc.devRef .tc main_arg4) :=
  StableHlo.after_of_forall_not_mem (b := Proc.devRef .tc main_arg4) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_arg5 (W : Valuation τ sig (Elt F)) :
    StableHlo.after (hostOps1 (F := F)) W (Proc.devRef .tc main_arg5) = W (Proc.devRef .tc main_arg5) :=
  StableHlo.after_of_forall_not_mem (b := Proc.devRef .tc main_arg5) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_arg6 (W : Valuation τ sig (Elt F)) :
    StableHlo.after (hostOps1 (F := F)) W (Proc.devRef .tc main_arg6) = W (Proc.devRef .tc main_arg6) :=
  StableHlo.after_of_forall_not_mem (b := Proc.devRef .tc main_arg6) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_arg7 (W : Valuation τ sig (Elt F)) :
    StableHlo.after (hostOps1 (F := F)) W (Proc.devRef .tc main_arg7) = W (Proc.devRef .tc main_arg7) :=
  StableHlo.after_of_forall_not_mem (b := Proc.devRef .tc main_arg7) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_arg8 (W : Valuation τ sig (Elt F)) :
    StableHlo.after (hostOps1 (F := F)) W (Proc.devRef .tc main_arg8) = W (Proc.devRef .tc main_arg8) :=
  StableHlo.after_of_forall_not_mem (b := Proc.devRef .tc main_arg8) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_arg9 (W : Valuation τ sig (Elt F)) :
    StableHlo.after (hostOps1 (F := F)) W (Proc.devRef .tc main_arg9) = W (Proc.devRef .tc main_arg9) :=
  StableHlo.after_of_forall_not_mem (b := Proc.devRef .tc main_arg9) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_arg10 (W : Valuation τ sig (Elt F)) :
    StableHlo.after (hostOps1 (F := F)) W (Proc.devRef .tc main_arg10) = W (Proc.devRef .tc main_arg10) :=
  StableHlo.after_of_forall_not_mem (b := Proc.devRef .tc main_arg10) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_arg11 (W : Valuation τ sig (Elt F)) :
    StableHlo.after (hostOps1 (F := F)) W (Proc.devRef .tc main_arg11) = W (Proc.devRef .tc main_arg11) :=
  StableHlo.after_of_forall_not_mem (b := Proc.devRef .tc main_arg11) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_arg12 (W : Valuation τ sig (Elt F)) :
    StableHlo.after (hostOps1 (F := F)) W (Proc.devRef .tc main_arg12) = W (Proc.devRef .tc main_arg12) :=
  StableHlo.after_of_forall_not_mem (b := Proc.devRef .tc main_arg12) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_arg13 (W : Valuation τ sig (Elt F)) :
    StableHlo.after (hostOps1 (F := F)) W (Proc.devRef .tc main_arg13) = W (Proc.devRef .tc main_arg13) :=
  StableHlo.after_of_forall_not_mem (b := Proc.devRef .tc main_arg13) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_arg14 (W : Valuation τ sig (Elt F)) :
    StableHlo.after (hostOps1 (F := F)) W (Proc.devRef .tc main_arg14) = W (Proc.devRef .tc main_arg14) :=
  StableHlo.after_of_forall_not_mem (b := Proc.devRef .tc main_arg14) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_arg15 (W : Valuation τ sig (Elt F)) :
    StableHlo.after (hostOps1 (F := F)) W (Proc.devRef .tc main_arg15) = W (Proc.devRef .tc main_arg15) :=
  StableHlo.after_of_forall_not_mem (b := Proc.devRef .tc main_arg15) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_v1 (W : Valuation τ sig (Elt F)) :
    StableHlo.after (hostOps1 (F := F)) W (Proc.devRef .tc main_v1) = W (Proc.devRef .tc main_v1) :=
  StableHlo.after_of_forall_not_mem (b := Proc.devRef .tc main_v1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_v3 (W : Valuation τ sig (Elt F)) :
    StableHlo.after (hostOps1 (F := F)) W (Proc.devRef .tc main_v3) = W (Proc.devRef .tc main_v3) :=
  StableHlo.after_of_forall_not_mem (b := Proc.devRef .tc main_v3) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_v31 (W : Valuation τ sig (Elt F)) :
    StableHlo.after (hostOps1 (F := F)) W (Proc.devRef .tc main_v31) = W (Proc.devRef .tc main_v31) :=
  StableHlo.after_of_forall_not_mem (b := Proc.devRef .tc main_v31) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_v33 (W : Valuation τ sig (Elt F)) :
    StableHlo.after (hostOps1 (F := F)) W (Proc.devRef .tc main_v33) = W (Proc.devRef .tc main_v33) :=
  StableHlo.after_of_forall_not_mem (b := Proc.devRef .tc main_v33) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps1_v34 (W : Valuation τ sig (Elt F)) :
    StableHlo.after (hostOps1 (F := F)) W (Proc.devRef .tc main_v34) = W (Proc.devRef .tc main_v34) :=
  StableHlo.after_of_forall_not_mem (b := Proc.devRef .tc main_v34) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keeps3_arg0 (W : Valuation τ sig (Elt F)) :
    StableHlo.after (hostOps3 (F := F)) W (Proc.devRef .tc main_arg0) = W (Proc.devRef .tc main_arg0) :=
  StableHlo.after_of_forall_not_mem (b := Proc.devRef .tc main_arg0) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_arg1 (W : Valuation τ sig (Elt F)) :
    StableHlo.after (hostOps3 (F := F)) W (Proc.devRef .tc main_arg1) = W (Proc.devRef .tc main_arg1) :=
  StableHlo.after_of_forall_not_mem (b := Proc.devRef .tc main_arg1) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_arg2 (W : Valuation τ sig (Elt F)) :
    StableHlo.after (hostOps3 (F := F)) W (Proc.devRef .tc main_arg2) = W (Proc.devRef .tc main_arg2) :=
  StableHlo.after_of_forall_not_mem (b := Proc.devRef .tc main_arg2) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_arg3 (W : Valuation τ sig (Elt F)) :
    StableHlo.after (hostOps3 (F := F)) W (Proc.devRef .tc main_arg3) = W (Proc.devRef .tc main_arg3) :=
  StableHlo.after_of_forall_not_mem (b := Proc.devRef .tc main_arg3) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_arg4 (W : Valuation τ sig (Elt F)) :
    StableHlo.after (hostOps3 (F := F)) W (Proc.devRef .tc main_arg4) = W (Proc.devRef .tc main_arg4) :=
  StableHlo.after_of_forall_not_mem (b := Proc.devRef .tc main_arg4) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_arg5 (W : Valuation τ sig (Elt F)) :
    StableHlo.after (hostOps3 (F := F)) W (Proc.devRef .tc main_arg5) = W (Proc.devRef .tc main_arg5) :=
  StableHlo.after_of_forall_not_mem (b := Proc.devRef .tc main_arg5) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_arg6 (W : Valuation τ sig (Elt F)) :
    StableHlo.after (hostOps3 (F := F)) W (Proc.devRef .tc main_arg6) = W (Proc.devRef .tc main_arg6) :=
  StableHlo.after_of_forall_not_mem (b := Proc.devRef .tc main_arg6) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_arg7 (W : Valuation τ sig (Elt F)) :
    StableHlo.after (hostOps3 (F := F)) W (Proc.devRef .tc main_arg7) = W (Proc.devRef .tc main_arg7) :=
  StableHlo.after_of_forall_not_mem (b := Proc.devRef .tc main_arg7) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_arg8 (W : Valuation τ sig (Elt F)) :
    StableHlo.after (hostOps3 (F := F)) W (Proc.devRef .tc main_arg8) = W (Proc.devRef .tc main_arg8) :=
  StableHlo.after_of_forall_not_mem (b := Proc.devRef .tc main_arg8) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_arg9 (W : Valuation τ sig (Elt F)) :
    StableHlo.after (hostOps3 (F := F)) W (Proc.devRef .tc main_arg9) = W (Proc.devRef .tc main_arg9) :=
  StableHlo.after_of_forall_not_mem (b := Proc.devRef .tc main_arg9) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_arg10 (W : Valuation τ sig (Elt F)) :
    StableHlo.after (hostOps3 (F := F)) W (Proc.devRef .tc main_arg10) = W (Proc.devRef .tc main_arg10) :=
  StableHlo.after_of_forall_not_mem (b := Proc.devRef .tc main_arg10) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_arg11 (W : Valuation τ sig (Elt F)) :
    StableHlo.after (hostOps3 (F := F)) W (Proc.devRef .tc main_arg11) = W (Proc.devRef .tc main_arg11) :=
  StableHlo.after_of_forall_not_mem (b := Proc.devRef .tc main_arg11) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_arg12 (W : Valuation τ sig (Elt F)) :
    StableHlo.after (hostOps3 (F := F)) W (Proc.devRef .tc main_arg12) = W (Proc.devRef .tc main_arg12) :=
  StableHlo.after_of_forall_not_mem (b := Proc.devRef .tc main_arg12) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_arg13 (W : Valuation τ sig (Elt F)) :
    StableHlo.after (hostOps3 (F := F)) W (Proc.devRef .tc main_arg13) = W (Proc.devRef .tc main_arg13) :=
  StableHlo.after_of_forall_not_mem (b := Proc.devRef .tc main_arg13) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_arg14 (W : Valuation τ sig (Elt F)) :
    StableHlo.after (hostOps3 (F := F)) W (Proc.devRef .tc main_arg14) = W (Proc.devRef .tc main_arg14) :=
  StableHlo.after_of_forall_not_mem (b := Proc.devRef .tc main_arg14) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_arg15 (W : Valuation τ sig (Elt F)) :
    StableHlo.after (hostOps3 (F := F)) W (Proc.devRef .tc main_arg15) = W (Proc.devRef .tc main_arg15) :=
  StableHlo.after_of_forall_not_mem (b := Proc.devRef .tc main_arg15) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_v1 (W : Valuation τ sig (Elt F)) :
    StableHlo.after (hostOps3 (F := F)) W (Proc.devRef .tc main_v1) = W (Proc.devRef .tc main_v1) :=
  StableHlo.after_of_forall_not_mem (b := Proc.devRef .tc main_v1) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_v3 (W : Valuation τ sig (Elt F)) :
    StableHlo.after (hostOps3 (F := F)) W (Proc.devRef .tc main_v3) = W (Proc.devRef .tc main_v3) :=
  StableHlo.after_of_forall_not_mem (b := Proc.devRef .tc main_v3) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_v31 (W : Valuation τ sig (Elt F)) :
    StableHlo.after (hostOps3 (F := F)) W (Proc.devRef .tc main_v31) = W (Proc.devRef .tc main_v31) :=
  StableHlo.after_of_forall_not_mem (b := Proc.devRef .tc main_v31) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_v33 (W : Valuation τ sig (Elt F)) :
    StableHlo.after (hostOps3 (F := F)) W (Proc.devRef .tc main_v33) = W (Proc.devRef .tc main_v33) :=
  StableHlo.after_of_forall_not_mem (b := Proc.devRef .tc main_v33) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keeps3_v53 (W : Valuation τ sig (Elt F)) :
    StableHlo.after (hostOps3 (F := F)) W (Proc.devRef .tc main_v53) = W (Proc.devRef .tc main_v53) :=
  StableHlo.after_of_forall_not_mem (b := Proc.devRef .tc main_v53) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Keeps

/-! ## The graph quantities after the first stretch -/

variable (m : (ℓ : Loc nD τ sig) → Buf (Elt Ideal) ℓ) (ρ : Dev nD → PrngReg)

set_option maxHeartbeats 4000000 in
/-- The source indices. -/
theorem s0_v1 (c : Dev nD) : (W1 m ρ c (Proc.devRef .tc main_v1) : S1600000.Idx → Elt Ideal (.i32))
    = Cert.ReferenceIdeal.Read.val_main_v1 (F := Ideal) (m ((c : Thread nD τ).loc main_arg1)) := by
  show StableHlo.after hostOps0 (W0 m ρ c) (Proc.devRef .tc main_v1) = _
  after_results_simp
  unfold Cert.ReferenceIdeal.Read.val_main_v1 Cert.ReferenceIdeal.Read.val_main_v0
  rfl

set_option maxHeartbeats 4000000 in
/-- The destination indices. -/
theorem s0_v3 (c : Dev nD) : (W1 m ρ c (Proc.devRef .tc main_v3) : S1600000.Idx → Elt Ideal (.i32))
    = Cert.ReferenceIdeal.Read.val_main_v3 (F := Ideal) (m ((c : Thread nD τ).loc main_arg1)) := by
  show StableHlo.after hostOps0 (W0 m ρ c) (Proc.devRef .tc main_v3) = _
  after_results_simp
  unfold Cert.ReferenceIdeal.Read.val_main_v3 Cert.ReferenceIdeal.Read.val_main_v2
  rfl

set_option maxHeartbeats 4000000 in
/-- The per-edge weights dinv[src] · dinv[dst], as the reference's vector reshaped to a column. -/
theorem s0_v31 (c : Dev nD) : (W1 m ρ c (Proc.devRef .tc main_v31) : S1600000x1.Idx → Elt Ideal (.f32))
    = shapeCast S1600000x1 (Cert.ReferenceIdeal.Read.val_main_v31 (F := Ideal) (m ((c : Thread nD τ).loc main_arg1))) shapeCasts_S1600000_S1600000x1 := by
  show StableHlo.after hostOps0 (W0 m ρ c) (Proc.devRef .tc main_v31) = _
  after_results_simp
  unfold Cert.ReferenceIdeal.Read.val_main_v31 Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_c_4 Cert.ReferenceIdeal.Read.val_main_v18 Cert.ReferenceIdeal.Read.val_main_v17 Cert.ReferenceIdeal.Read.val_main_c_3 Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_c_6 Cert.ReferenceIdeal.Read.val_main_v25 Cert.ReferenceIdeal.Read.val_main_v24 Cert.ReferenceIdeal.Read.val_main_c_5 Cert.ReferenceIdeal.Read.val_main_v1 Cert.ReferenceIdeal.Read.val_main_v0 Cert.ReferenceIdeal.Read.val_main_v16 Cert.ReferenceIdeal.Read.val_main_v15 Cert.ReferenceIdeal.Read.val_main_v14 Cert.ReferenceIdeal.Read.val_main_cst_2 Cert.ReferenceIdeal.Read.val_main_v13 Cert.ReferenceIdeal.Read.val_main_v12 Cert.ReferenceIdeal.Read.val_main_cst_1 Cert.ReferenceIdeal.Read.val_main_v11 Cert.ReferenceIdeal.Read.val_main_v10 Cert.ReferenceIdeal.Read.val_main_v9 Cert.ReferenceIdeal.Read.val_main_v8 Cert.ReferenceIdeal.Read.val_main_c_0 Cert.ReferenceIdeal.Read.val_main_v7 Cert.ReferenceIdeal.Read.val_main_v6 Cert.ReferenceIdeal.Read.val_main_c Cert.ReferenceIdeal.Read.val_main_v5 Cert.ReferenceIdeal.Read.val_main_cst Cert.ReferenceIdeal.Read.val_main_v3 Cert.ReferenceIdeal.Read.val_main_v2
  rfl

set_option maxHeartbeats 4000000 in
/-- The squared inverse square-root degrees, as the reference's vector reshaped to a column. -/
theorem s0_v33 (c : Dev nD) : (W1 m ρ c (Proc.devRef .tc main_v33) : S50000x1.Idx → Elt Ideal (.f32))
    = shapeCast S50000x1 (Cert.ReferenceIdeal.Read.val_main_v45 (F := Ideal) (m ((c : Thread nD τ).loc main_arg1))) shapeCasts_S50000_S50000x1 := by
  show StableHlo.after hostOps0 (W0 m ρ c) (Proc.devRef .tc main_v33) = _
  after_results_simp
  unfold Cert.ReferenceIdeal.Read.val_main_v45 Cert.ReferenceIdeal.Read.val_main_v16 Cert.ReferenceIdeal.Read.val_main_v15 Cert.ReferenceIdeal.Read.val_main_v14 Cert.ReferenceIdeal.Read.val_main_cst_2 Cert.ReferenceIdeal.Read.val_main_v13 Cert.ReferenceIdeal.Read.val_main_v12 Cert.ReferenceIdeal.Read.val_main_cst_1 Cert.ReferenceIdeal.Read.val_main_v11 Cert.ReferenceIdeal.Read.val_main_v10 Cert.ReferenceIdeal.Read.val_main_v9 Cert.ReferenceIdeal.Read.val_main_v8 Cert.ReferenceIdeal.Read.val_main_c_0 Cert.ReferenceIdeal.Read.val_main_v7 Cert.ReferenceIdeal.Read.val_main_v6 Cert.ReferenceIdeal.Read.val_main_c Cert.ReferenceIdeal.Read.val_main_v5 Cert.ReferenceIdeal.Read.val_main_cst Cert.ReferenceIdeal.Read.val_main_v3 Cert.ReferenceIdeal.Read.val_main_v2
  rfl

end Cert.KernelIdeal.Whole

end
-- ==== Proof.Region0.lean ====
/-
  The first projection, h1 = x · W1, as one array.

  The grid has ten points; point t loads rows 5000·t … 5000·t + 4999 of x (all 256 columns) and the whole of
  W1, and writes back the product of the two into rows 5000·t … 5000·t + 4999 of the output. Entry (r, j) of
  that product is the sum over k of x[5000·t + r, k] · W1[k, j], which is entry (5000·t + r, j) of the whole
  product x · W1. The ten row blocks are disjoint and fill the array, so after the region the output array is
  the whole product, index by index.
-/
import proofs.«159547_j46755013984836_2_alg».proof.Proof.Gen.KernelIdeal.Frame
import proofs.«159547_j46755013984836_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.Whole

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row-blocked windows at block row t, the weight at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The body's product at an index -/

theorem lhs0_0 (j : S5000x128.Idx) (q : dot_S5000x256_S256x128_S5000x128_1_0_0_1_n_n.contr.Idx) : (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs0_1 (j : S5000x128.Idx) (q : dot_S5000x256_S256x128_S5000x128_1_0_0_1_n_n.contr.Idx) : (dot_S5000x256_S256x128_S5000x128_1_0_0_1_n_n.lhsIdx j q 1).val = (q ⟨0, by decide⟩).val :=
  dot_S5000x256_S256x128_S5000x128_1_0_0_1_n_n.lhsIdx_val_of_single rfl j q
theorem rhs0_0 (j : S5000x128.Idx) (q : dot_S5000x256_S256x128_S5000x128_1_0_0_1_n_n.contr.Idx) : (dot_S5000x256_S256x128_S5000x128_1_0_0_1_n_n.rhsIdx j q 0).val = (q ⟨0, by decide⟩).val :=
  dot_S5000x256_S256x128_S5000x128_1_0_0_1_n_n.rhsIdx_val_of_single rfl j q
theorem rhs0_1 (j : S5000x128.Idx) (q : dot_S5000x256_S256x128_S5000x128_1_0_0_1_n_n.contr.Idx) : (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry (r, j) of the body's product is the sum over k of the row block's entry (r, k) times W1's entry (k, j):
    the matrix unit's product into a zero accumulator, with the contraction index counted 0 … 255. -/
theorem pay0_apply (xb : Vec Ideal S5000x256 .f32) (w : Vec Ideal S256x128 .f32) (j : S5000x128.Idx) :
    k0_pay1 (F := Ideal) xb w j = ∑ k : Fin 256, xb (ix2 (j 0) k) * w (ix2 k (j 1)) := by
  unfold k0_pay1
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = ix2 (j 0) k := funext fun a => Fin.ext (by
    match a with
    | ⟨0, _⟩ => exact lhs0_0 _ _
    | ⟨1, _⟩ => exact (lhs0_1 _ _).trans hk)
  have er : dot_S5000x256_S256x128_S5000x128_1_0_0_1_n_n.rhsIdx j ((ValueIdx.contrEquiv1 dot_S5000x256_S256x128_S5000x128_1_0_0_1_n_n 256 rfl rfl).symm k) = ix2 k (j 1) := funext fun a => Fin.ext (by
    match a with
    | ⟨0, _⟩ => exact (rhs0_0 _ _).trans hk
    | ⟨1, _⟩ => exact rhs0_1 _ _)
  rw [el, er]
  rfl

/-! ## The input blocks as rows of the arrays -/

/-- Point t's block of x is rows 5000·t … 5000·t + 4999 of x, all columns. -/
theorem iblk0_0_apply (c : Dev nD) (t : Fin cfg0.N) (y : S5000x256.Idx) (i : S50000x256.Idx)
    (h0 : (i 0).val = 5000 * t.val + (y 0).val) (h1 : (i 1).val = (y 1).val) :
    (iblk0 V c 0 t : Vec Ideal S5000x256 .f32) y = (V c main_arg0 : S50000x256.Idx → Elt Ideal .f32) i := by
  obtain ⟨e00, e01, -, -, -, -⟩ := idx0 t
  unfold iblk0
  rw [View.read_apply]
  show V c main_arg0 _ = V c main_arg0 _
  refine congrArg (V c main_arg0) ?_
  funext a
  apply Fin.ext
  match a with
  | ⟨0, _⟩ => show win0_0.index t 0 * 5000 + 1 * (y 0).val = (i 0).val; rw [e00, h0]; omega
  | ⟨1, _⟩ => show win0_0.index t 1 * 256 + 1 * (y 1).val = (i 1).val; rw [e01, h1]; omega

/-- Every point's block of W1 is the whole of W1. -/
theorem iblk0_1_apply (c : Dev nD) (t : Fin cfg0.N) (y : S256x128.Idx) :
    (iblk0 V c 1 t : Vec Ideal S256x128 .f32) y = (V c main_arg2 : S256x128.Idx → Elt Ideal .f32) y := by
  obtain ⟨-, -, e10, e11, -, -⟩ := idx0 t
  unfold iblk0
  rw [View.read_apply]
  show V c main_arg2 _ = V c main_arg2 _
  refine congrArg (V c main_arg2) ?_
  funext a
  apply Fin.ext
  match a with
  | ⟨0, _⟩ => show win0_1.index t 0 * 256 + 1 * (y 0).val = (y 0).val; rw [e10]; omega
  | ⟨1, _⟩ => show win0_1.index t 1 * 128 + 1 * (y 1).val = (y 1).val; rw [e11]; omega

/-! ## What a point writes back, and the array after the region -/

/-- Point t writes back block t of the whole product x · W1. -/
theorem flushed0 (c : Dev nD) (t : Fin cfg0.N) :
    (dat0 V c).flushed 2 t = ((cfg0.win 2).blk t).view.read (Elt Ideal)
      (Cert.ReferenceIdeal.Read.val_main_v4 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨-, -, -, -, e20, e21⟩ := idx0 t
  funext j
  show k0_pay1 (F := Ideal) (iblk0 V c 0 t) (iblk0 V c 1 t) j
    = Cert.ReferenceIdeal.Read.val_main_v4 (F := Ideal) (V c main_arg0) (V c main_arg2) (((cfg0.win 2).blk t).view.emb j)
  refine (pay0_apply (iblk0 V c 0 t) (iblk0 V c 1 t) j).trans ?_
  rw [Cert.ReferenceIdeal.Read.val_main_v4_apply]
  refine Finset.sum_congr rfl fun k _ => ?_
  have hx := iblk0_0_apply V c t (ix2 (j 0) k) (Cert.ReferenceIdeal.Read.lidx_main_v4 (((cfg0.win 2).blk t).view.emb j) k)
    (by show win0_2.index t 0 * 5000 + 1 * (j 0).val = 5000 * t.val + (j 0).val; rw [e20]; omega) rfl
  have hw := iblk0_1_apply V c t (ix2 k (j 1))
  have hr : (ix2 k (j 1) : S256x128.Idx) = Cert.ReferenceIdeal.Read.ridx_main_v4 (((cfg0.win 2).blk t).view.emb j) k :=
    funext fun a => Fin.ext (by
      match a with
      | ⟨0, _⟩ => rfl
      | ⟨1, _⟩ => show (j 1).val = win0_2.index t 1 * 128 + 1 * (j 1).val; rw [e21]; omega)
  rw [hx, hw, hr]

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v34).slice (win0_2.rect t)).set ↔ _
  rw [View.set_slice_whole, Rect.mem_set_unit]
  exact Iff.rfl

/-- After the region the output array is the whole product x · W1 of the arrays the region found: row r lies
    in the block of point r / 5000, and every point writes its block back. -/
theorem final0 (c : Dev nD) : (dat0 V c).arrAt 2 cfg0.N
    = Cert.ReferenceIdeal.Read.val_main_v4 (F := Ideal) (V c main_arg0) (V c main_arg2) :=
  (dat0 V c).arrAt_eq_of_cover 2 (Cert.ReferenceIdeal.Read.val_main_v4 (F := Ideal) (V c main_arg0) (V c main_arg2))
    (fun t _ => flushed0 V c t) fun i => by
      have hi0 : (i 0).val < 50000 := (i 0).isLt
      have hi1 : (i 1).val < 128 := (i 1).isLt
      have hN : cfg0.N = 10 := N_0
      obtain ⟨t, ht⟩ : ∃ t : Fin cfg0.N, t.val = (i 0).val / 5000 := ⟨⟨(i 0).val / 5000, by rw [hN]; omega⟩, rfl⟩
      obtain ⟨-, -, -, -, e20, e21⟩ := idx0 t
      refine ⟨t, flush0_2 t, ?_⟩
      rw [mem_blk0]
      intro a
      match a with
      | ⟨0, _⟩ =>
        show win0_2.index t 0 * 5000 ≤ (i 0).val ∧ (i 0).val < win0_2.index t 0 * 5000 + 5000
        rw [e20, ht]; omega
      | ⟨1, _⟩ =>
        show win0_2.index t 1 * 128 ≤ (i 1).val ∧ (i 1).val < win0_2.index t 1 * 128 + 128
        rw [e21]; omega

end Cert.KernelIdeal.Whole

end
-- ==== Proof.LibColumnLayout.lean ====
/-
  Column layouts read at an index.

  A vector of length a can be made a column, an [a, 1] array, in two ways: by a reshape, which keeps the
  row-major position, or by a broadcast that names axis 0 of the result as the vector's axis. Entry (p, 0) of
  either is entry p of the vector, so the two columns are one array. A column broadcast across b columns
  reads, at (p, c), the column's entry (p, 0).
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An [a, 1] column broadcast to [a, b] reads, at (p, c), the column's entry (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A length-a vector reshaped to an [a, 1] column reads, at (p, 0), the vector's entry p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  omega

/-- A length-a vector broadcast along axis 0 into an [a, 1] column reads, at (p, 0), the vector's entry p. -/
theorem broadcastInDim_a_a1_apply {a : ℕ} (x : (⟨1, ![a]⟩ : Shape).Idx → α)
    (dims : Fin 1 → Fin 2) (hd : dims 0 = 0)
    (h : (⟨1, ![a]⟩ : Shape).BroadcastsInDim ⟨2, ![a, 1]⟩ dims) (p : Fin a) :
    broadcastInDim ⟨2, ![a, 1]⟩ dims h x (ix2 p (0 : Fin 1)) = x (ix1 p) := by
  refine broadcastInDim_apply dims h x (ix2 p (0 : Fin 1)) (ix1 p) fun ax => ?_
  match ax with
  | ⟨0, _⟩ =>
    show p.val = if a = 1 then 0 else (ix2 p (0 : Fin 1) (dims 0)).val
    rw [hd]
    split
    · have := p.isLt; omega
    · rfl

/-- Every index of an [a, 1] column is (p, 0) for its row p. -/
theorem eq_ix2_col {a : ℕ} (j : (⟨2, ![a, 1]⟩ : Shape).Idx) : j = ix2 (j 0) (0 : Fin 1) := by
  funext d
  match d with
  | ⟨0, _⟩ => rfl
  | ⟨1, _⟩ =>
    apply Fin.ext
    have h1 : (j 1).val < 1 := (j 1).isLt
    show (j 1).val = 0
    omega

/-- The reshaped column and the broadcast column of one vector are the same array. -/
theorem shapeCast_a_a1_eq_broadcastInDim {a : ℕ} (x : (⟨1, ![a]⟩ : Shape).Idx → α)
    (hs : (⟨1, ![a]⟩ : Shape).ShapeCasts ⟨2, ![a, 1]⟩)
    (dims : Fin 1 → Fin 2) (hd : dims 0 = 0) (hb : (⟨1, ![a]⟩ : Shape).BroadcastsInDim ⟨2, ![a, 1]⟩ dims) :
    shapeCast ⟨2, ![a, 1]⟩ x hs = broadcastInDim ⟨2, ![a, 1]⟩ dims hb x := by
  funext j
  obtain ⟨p, rfl⟩ : ∃ p : Fin a, j = ix2 p (0 : Fin 1) := ⟨j 0, eq_ix2_col j⟩
  rw [shapeCast_a_a1_apply, broadcastInDim_a_a1_apply x dims hd]

end Idealize.ShloMosaic.ColumnLayout
-- ==== Proof.Region1.lean ====
/-
  The first layer's combine, ReLU and batch normalisation, y1, as one array.

  Point t of the ten loads rows 5000·t … 5000·t + 4999 of three arrays — the aggregated messages agg, the
  projection h and the column dinv² of squared inverse square-root degrees — and the whole of five parameter
  rows b, γ, β, mean, var, and writes back, at (r, j) of its block,
      ((max (agg[R, j] + h[R, j] · dinv²[R] + b[j]) 0 − mean[j]) · rsqrt (var[j] + ε)) · γ[j] + β[j],   R = 5000·t + r.
  The column is broadcast across the 128 columns and each parameter row down the 5000 rows, which only chooses
  the coordinate each is read at. The ten row blocks fill the array, so the array after the region is that
  expression at every (R, j): the reference's first layer, given that the three arrays hold the reference's
  aggregation, projection and squared inverse degree and the rows hold the five parameter vectors.
-/
import proofs.«159547_j46755013984836_2_alg».proof.Proof.Region0
import proofs.«159547_j46755013984836_2_alg».proof.Proof.LibColumnLayout
import Idealize.ShloMosaic.Lib.ValueLayout

set_option maxRecDepth 16384

noncomputable section

open Idealize.ShloMosaic Idealize.ShloMosaic.TcCoe Idealize.SL.Sem
open Idealize.ShloMosaic.Pipeline (Dat)
open scoped BigOperators

namespace Cert.KernelIdeal.Whole

open Cert.KernelIdeal Cert.KernelIdeal.Gen Idealize.ShloMosaic.ValueIdx Idealize.ShloMosaic.ColumnLayout

variable (V : (c : Dev nD) → (b : Ref sig .tc) → Buf (Elt Ideal) ((c : Thread nD τ).loc b))

/-! ## Where each window's block sits at point t -/

theorem idx1_w0 : ∀ t : Fin cfg1.N, win1_0.index t (0 : Fin 2) = t.val ∧ win1_0.index t (1 : Fin 2) = 0 :=
  (by decide +kernel : ∀ t : Fin grid1.N, _)
theorem idx1_w1 : ∀ t : Fin cfg1.N, win1_1.index t (0 : Fin 2) = t.val ∧ win1_1.index t (1 : Fin 2) = 0 :=
  (by decide +kernel : ∀ t : Fin grid1.N, _)
theorem idx1_w2 : ∀ t : Fin cfg1.N, win1_2.index t (0 : Fin 2) = t.val ∧ win1_2.index t (1 : Fin 2) = 0 :=
  (by decide +kernel : ∀ t : Fin grid1.N, _)
theorem idx1_w8 : ∀ t : Fin cfg1.N, win1_8.index t (0 : Fin 2) = t.val ∧ win1_8.index t (1 : Fin 2) = 0 :=
  (by decide +kernel : ∀ t : Fin grid1.N, _)
theorem idx1_w3 : ∀ t : Fin cfg1.N, win1_3.index t (0 : Fin 2) = 0 ∧ win1_3.index t (1 : Fin 2) = 0 :=
  (by decide +kernel : ∀ t : Fin grid1.N, _)
theorem idx1_w4 : ∀ t : Fin cfg1.N, win1_4.index t (0 : Fin 2) = 0 ∧ win1_4.index t (1 : Fin 2) = 0 :=
  (by decide +kernel : ∀ t : Fin grid1.N, _)
theorem idx1_w5 : ∀ t : Fin cfg1.N, win1_5.index t (0 : Fin 2) = 0 ∧ win1_5.index t (1 : Fin 2) = 0 :=
  (by decide +kernel : ∀ t : Fin grid1.N, _)
theorem idx1_w6 : ∀ t : Fin cfg1.N, win1_6.index t (0 : Fin 2) = 0 ∧ win1_6.index t (1 : Fin 2) = 0 :=
  (by decide +kernel : ∀ t : Fin grid1.N, _)
theorem idx1_w7 : ∀ t : Fin cfg1.N, win1_7.index t (0 : Fin 2) = 0 ∧ win1_7.index t (1 : Fin 2) = 0 :=
  (by decide +kernel : ∀ t : Fin grid1.N, _)

/-! ## The body's value at an index -/

/-- The row rsqrt (var + ε), read at an index. -/
theorem rsqrt_row128_apply (var : Vec Ideal S1x128 .f32) (y : S1x128.Idx) :
    (rsqrt (addf var (broadcast S1x128 (FloatOps.ofBits (F := Ideal) .f32 0x3727C5AC#32))) : FVec Ideal S1x128 .f32) y
      = FloatOps.rsqrt (var y + FloatOps.ofBits (F := Ideal) .f32 0x3727C5AC#32) := rfl

/-- At (r, j) the body's value is the combine, ReLU and normalisation of the loaded blocks at (r, j), the column
    read at row r and each parameter row at column j. -/
theorem pay1_apply_ix (a h : Vec Ideal S5000x128 .f32) (d : Vec Ideal S5000x1 .f32) (b g be mu var : Vec Ideal S1x128 .f32)
    (p : Fin 5000) (q : Fin 128) :
    k1_pay1 (F := Ideal) a h d b g be mu var (ix2 p q)
      = (max (a (ix2 p q) + h (ix2 p q) * d (ix2 p (0 : Fin 1)) + b (ix2 (0 : Fin 1) q)) (FloatOps.ofBits (F := Ideal) .f32 0x00000000#32)
            - mu (ix2 (0 : Fin 1) q))
          * FloatOps.rsqrt (var (ix2 (0 : Fin 1) q) + FloatOps.ofBits (F := Ideal) .f32 0x3727C5AC#32)
          * g (ix2 (0 : Fin 1) q) + be (ix2 (0 : Fin 1) q) := by
  unfold k1_pay1
  simp only [shapeCast_self]
  simp only [addf_apply, mulf_apply, subf_apply, maximumf_apply, broadcast_apply]
  rw [broadcastTo_a1_ab_apply d, broadcastTo_1b_ab_apply b, broadcastTo_1b_ab_apply mu, broadcastTo_1b_ab_apply g,
    broadcastTo_1b_ab_apply be, broadcastTo_1b_ab_apply, rsqrt_row128_apply]

/-- The same at any index of the block, written through its two coordinates. -/
theorem pay1_apply (a h : Vec Ideal S5000x128 .f32) (d : Vec Ideal S5000x1 .f32) (b g be mu var : Vec Ideal S1x128 .f32)
    (j : S5000x128.Idx) :
    k1_pay1 (F := Ideal) a h d b g be mu var j
      = (max (a j + h j * d (ix2 (j 0) (0 : Fin 1)) + b (ix2 (0 : Fin 1) (j 1))) (FloatOps.ofBits (F := Ideal) .f32 0x00000000#32)
            - mu (ix2 (0 : Fin 1) (j 1)))
          * FloatOps.rsqrt (var (ix2 (0 : Fin 1) (j 1)) + FloatOps.ofBits (F := Ideal) .f32 0x3727C5AC#32)
          * g (ix2 (0 : Fin 1) (j 1)) + be (ix2 (0 : Fin 1) (j 1)) := by
  obtain ⟨p, q, rfl⟩ : ∃ (p : Fin 5000) (q : Fin 128), j = ix2 p q := ⟨j 0, j 1, eq_ix2 j⟩
  exact pay1_apply_ix a h d b g be mu var p q

/-! ## The input blocks as rows of the arrays -/

/-- Point t's block of the aggregated messages is rows 5000·t … 5000·t + 4999 of it, all columns. -/
theorem iblk1_0_apply (c : Dev nD) (t : Fin cfg1.N) (y : S5000x128.Idx) (i : S50000x128.Idx)
    (h0 : (i 0).val = 5000 * t.val + (y 0).val) (h1 : (i 1).val = (y 1).val) :
    (iblk1 V c 0 t : Vec Ideal S5000x128 .f32) y = (V c main_v46 : S50000x128.Idx → Elt Ideal .f32) i := by
  obtain ⟨e0, e1⟩ := idx1_w0 t
  unfold iblk1
  rw [View.read_apply]
  show V c main_v46 _ = V c main_v46 _
  refine congrArg (V c main_v46) ?_
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- Point t's block of the projection is rows 5000·t … 5000·t + 4999 of it, all columns. -/
theorem iblk1_1_apply (c : Dev nD) (t : Fin cfg1.N) (y : S5000x128.Idx) (i : S50000x128.Idx)
    (h0 : (i 0).val = 5000 * t.val + (y 0).val) (h1 : (i 1).val = (y 1).val) :
    (iblk1 V c 1 t : Vec Ideal S5000x128 .f32) y = (V c main_v34 : S50000x128.Idx → Elt Ideal .f32) i := by
  obtain ⟨e0, e1⟩ := idx1_w1 t
  unfold iblk1
  rw [View.read_apply]
  show V c main_v34 _ = V c main_v34 _
  refine congrArg (V c main_v34) ?_
  funext a
  apply Fin.ext
  match a with
  | ⟨0, _⟩ => show win1_1.index t 0 * 5000 + 1 * (y 0).val = (i 0).val; rw [e0, h0]; omega
  | ⟨1, _⟩ => show win1_1.index t 1 * 128 + 1 * (y 1).val = (i 1).val; rw [e1, h1]; omega

/-- Point t's block of the column of squared inverse degrees is rows 5000·t … 5000·t + 4999 of it, all columns. -/
theorem iblk1_2_apply (c : Dev nD) (t : Fin cfg1.N) (y : S5000x1.Idx) (i : S50000x1.Idx)
    (h0 : (i 0).val = 5000 * t.val + (y 0).val) (h1 : (i 1).val = (y 1).val) :
    (iblk1 V c 2 t : Vec Ideal S5000x1 .f32) y = (V c main_v33 : S50000x1.Idx → Elt Ideal .f32) i := by
  obtain ⟨e0, e1⟩ := idx1_w2 t
  unfold iblk1
  rw [View.read_apply]
  show V c main_v33 _ = V c main_v33 _
  refine congrArg (V c main_v33) ?_
  funext a
  apply Fin.ext
  match a with
  | ⟨0, _⟩ => show win1_2.index t 0 * 5000 + 1 * (y 0).val = (i 0).val; rw [e0, h0]; omega
  | ⟨1, _⟩ => show win1_2.index t 1 * 1 + 1 * (y 1).val = (i 1).val; rw [e1, h1]; omega

/-- Every point's block of the bias row is the whole of it. -/
theorem iblk1_3_apply (c : Dev nD) (t : Fin cfg1.N) (y : S1x128.Idx) :
    (iblk1 V c 3 t : Vec Ideal S1x128 .f32) y = (V c main_v47 : S1x128.Idx → Elt Ideal .f32) y := by
  obtain ⟨e0, e1⟩ := idx1_w3 t
  unfold iblk1
  rw [View.read_apply]
  show V c main_v47 _ = V c main_v47 _
  refine congrArg (V c main_v47) ?_
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega

/-- Every point's block of the scale row γ is the whole of it. -/
theorem iblk1_4_apply (c : Dev nD) (t : Fin cfg1.N) (y : S1x128.Idx) :
    (iblk1 V c 4 t : Vec Ideal S1x128 .f32) y = (V c main_v48 : S1x128.Idx → Elt Ideal .f32) y := by
  obtain ⟨e0, e1⟩ := idx1_w4 t
  unfold iblk1
  rw [View.read_apply]
  show V c main_v48 _ = V c main_v48 _
  refine congrArg (V c main_v48) ?_
  funext a
  apply Fin.ext
  match a with
  | ⟨0, _⟩ => show win1_4.index t 0 * 1 + 1 * (y 0).val = (y 0).val; rw [e0]; omega
  | ⟨1, _⟩ => show win1_4.index t 1 * 128 + 1 * (y 1).val = (y 1).val; rw [e1]; omega

/-- Every point's block of the shift row β is the whole of it. -/
theorem iblk1_5_apply (c : Dev nD) (t : Fin cfg1.N) (y : S1x128.Idx) :
    (iblk1 V c 5 t : Vec Ideal S1x128 .f32) y = (V c main_v49 : S1x128.Idx → Elt Ideal .f32) y := by
  obtain ⟨e0, e1⟩ := idx1_w5 t
  unfold iblk1
  rw [View.read_apply]
  show V c main_v49 _ = V c main_v49 _
  refine congrArg (V c main_v49) ?_
  funext a
  apply Fin.ext
  match a with
  | ⟨0, _⟩ => show win1_5.index t 0 * 1 + 1 * (y 0).val = (y 0).val; rw [e0]; omega
  | ⟨1, _⟩ => show win1_5.index t 1 * 128 + 1 * (y 1).val = (y 1).val; rw [e1]; omega

/-- Every point's block of the mean row is the whole of it. -/
theorem iblk1_6_apply (c : Dev nD) (t : Fin cfg1.N) (y : S1x128.Idx) :
    (iblk1 V c 6 t : Vec Ideal S1x128 .f32) y = (V c main_v50 : S1x128.Idx → Elt Ideal .f32) y := by
  obtain ⟨e0, e1⟩ := idx1_w6 t
  unfold iblk1
  rw [View.read_apply]
  show V c main_v50 _ = V c main_v50 _
  refine congrArg (V c main_v50) ?_
  funext a
  apply Fin.ext
  match a with
  | ⟨0, _⟩ => show win1_6.index t 0 * 1 + 1 * (y 0).val = (y 0).val; rw [e0]; omega
  | ⟨1, _⟩ => show win1_6.index t 1 * 128 + 1 * (y 1).val = (y 1).val; rw [e1]; omega

/-- Every point's block of the variance row is the whole of it. -/
theorem iblk1_7_apply (c : Dev nD) (t : Fin cfg1.N) (y : S1x128.Idx) :
    (iblk1 V c 7 t : Vec Ideal S1x128 .f32) y = (V c main_v51 : S1x128.Idx → Elt Ideal .f32) y := by
  obtain ⟨e0, e1⟩ := idx1_w7 t
  unfold iblk1
  rw [View.read_apply]
  show V c main_v51 _ = V c main_v51 _
  refine congrArg (V c main_v51) ?_
  funext a
  apply Fin.ext
  match a with
  | ⟨0, _⟩ => show win1_7.index t 0 * 1 + 1 * (y 0).val = (y 0).val; rw [e0]; omega
  | ⟨1, _⟩ => show win1_7.index t 1 * 128 + 1 * (y 1).val = (y 1).val; rw [e1]; omega

/-! ## What a point writes back, and the array after the region -/

section
variable (c : Dev nD) (agg h G : FVec Ideal S50000x128 .f32) (dsq : FVec Ideal S50000 .f32) (b g be mu var : FVec Ideal S128 .f32)
  (hagg : (V c main_v46 : S50000x128.Idx → Elt Ideal .f32) = agg)
  (hh : (V c main_v34 : S50000x128.Idx → Elt Ideal .f32) = h)
  (hd : ∀ p : Fin 50000, (V c main_v33 : S50000x1.Idx → Elt Ideal .f32) (ix2 p (0 : Fin 1)) = dsq (ix1 p))
  (hb : ∀ q : Fin 128, (V c main_v47 : S1x128.Idx → Elt Ideal .f32) (ix2 (0 : Fin 1) q) = b (ix1 q))
  (hg : ∀ q : Fin 128, (V c main_v48 : S1x128.Idx → Elt Ideal .f32) (ix2 (0 : Fin 1) q) = g (ix1 q))
  (hbe : ∀ q : Fin 128, (V c main_v49 : S1x128.Idx → Elt Ideal .f32) (ix2 (0 : Fin 1) q) = be (ix1 q))
  (hmu : ∀ q : Fin 128, (V c main_v50 : S1x128.Idx → Elt Ideal .f32) (ix2 (0 : Fin 1) q) = mu (ix1 q))
  (hvar : ∀ q : Fin 128, (V c main_v51 : S1x128.Idx → Elt Ideal .f32) (ix2 (0 : Fin 1) q) = var (ix1 q))
  (hG : ∀ i : S50000x128.Idx, G i
      = (max (agg i + h i * dsq (ix1 (i 0)) + b (ix1 (i 1))) (FloatOps.ofBits (F := Ideal) .f32 0x00000000#32) - mu (ix1 (i 1)))
          * FloatOps.rsqrt (var (ix1 (i 1)) + FloatOps.ofBits (F := Ideal) .f32 0x3727C5AC#32) * g (ix1 (i 1)) + be (ix1 (i 1)))

include hagg hh hd hb hg hbe hmu hvar hG in
/-- Point t writes back block t of G. -/
theorem flushed1 (t : Fin cfg1.N) :
    (dat1 V c).flushed 8 t = ((cfg1.win 8).blk t).view.read (Elt Ideal) G := by
  show (cfg1.win 8).cut (grid1.coords t) ((dat1 V c).after 8 t) = _
  rw [after1_8]
  unfold out1_8
  rw [View.canon_unit_zero hz]
  simp only [View.ld_unit_zero (S := S5000x128) hz, View.ld_unit_zero (S := S5000x1) hz, View.ld_unit_zero (S := S1x128) hz]
  obtain ⟨e80, e81⟩ := idx1_w8 t
  funext j
  show k1_pay1 (F := Ideal) (iblk1 V c 0 t) (iblk1 V c 1 t) (iblk1 V c 2 t) (iblk1 V c 3 t) (iblk1 V c 4 t) (iblk1 V c 5 t) (iblk1 V c 6 t) (iblk1 V c 7 t) j
    = G (((cfg1.win 8).blk t).view.emb j)
  refine (pay1_apply (iblk1 V c 0 t) (iblk1 V c 1 t) (iblk1 V c 2 t) (iblk1 V c 3 t) (iblk1 V c 4 t) (iblk1 V c 5 t) (iblk1 V c 6 t) (iblk1 V c 7 t) j).trans ?_
  rw [hG]
  -- the row and the column of the array index this block index sits at
  have r0 : ((((cfg1.win 8).blk t).view.emb j) 0).val = 5000 * t.val + (j 0).val := by
    show win1_8.index t 0 * 5000 + 1 * (j 0).val = 5000 * t.val + (j 0).val; rw [e80]; omega
  have r1 : ((((cfg1.win 8).blk t).view.emb j) 1).val = (j 1).val := by
    show win1_8.index t 1 * 128 + 1 * (j 1).val = (j 1).val; rw [e81]; omega
  have hcol : (((cfg1.win 8).blk t).view.emb j) 1 = j 1 := Fin.ext r1
  have ha := (iblk1_0_apply V c t j (((cfg1.win 8).blk t).view.emb j) r0 r1).trans (congrFun hagg _)
  have hh' := (iblk1_1_apply V c t j (((cfg1.win 8).blk t).view.emb j) r0 r1).trans (congrFun hh _)
  have hd' := (iblk1_2_apply V c t (ix2 (j 0) (0 : Fin 1)) (ix2 ((((cfg1.win 8).blk t).view.emb j) 0) (0 : Fin 1)) r0 rfl).trans (hd _)
  have hb' := (iblk1_3_apply V c t (ix2 (0 : Fin 1) (j 1))).trans (hb (j 1))
  have hg' := (iblk1_4_apply V c t (ix2 (0 : Fin 1) (j 1))).trans (hg (j 1))
  have hbe' := (iblk1_5_apply V c t (ix2 (0 : Fin 1) (j 1))).trans (hbe (j 1))
  have hmu' := (iblk1_6_apply V c t (ix2 (0 : Fin 1) (j 1))).trans (hmu (j 1))
  have hvar' := (iblk1_7_apply V c t (ix2 (0 : Fin 1) (j 1))).trans (hvar (j 1))
  rw [ha, hh', hd', hb', hg', hbe', hmu', hvar', hcol]

/-- An index of the output array is in point t's block iff each coordinate is in the block's range on its axis. -/
theorem mem_blk1 (t : Fin cfg1.N) (i : S50000x128.Idx) :
    i ∈ ((cfg1.win 8).blk t).view.set ↔ ∀ a : Fin 2, win1_8.index t a * S5000x128.size a ≤ (i a).val
      ∧ (i a).val < win1_8.index t a * S5000x128.size a + S5000x128.size a := by
  show i ∈ ((View.whole main_v52).slice (win1_8.rect t)).set ↔ _
  rw [View.set_slice_whole, Rect.mem_set_unit]
  exact Iff.rfl

include hagg hh hd hb hg hbe hmu hvar hG in
/-- After the region the output array is G: row R lies in the block of point R / 5000, and every point writes
    its block back. -/
theorem final1 : (dat1 V c).arrAt 8 cfg1.N = G :=
  (dat1 V c).arrAt_eq_of_cover 8 G
    (fun t _ => flushed1 V c agg h G dsq b g be mu var hagg hh hd hb hg hbe hmu hvar hG t) fun i => by
      have hi0 : (i 0).val < 50000 := (i 0).isLt
      have hi1 : (i 1).val < 128 := (i 1).isLt
      have hN : cfg1.N = 10 := N_1
      obtain ⟨t, ht⟩ : ∃ t : Fin cfg1.N, t.val = (i 0).val / 5000 := ⟨⟨(i 0).val / 5000, by rw [hN]; omega⟩, rfl⟩
      obtain ⟨e80, e81⟩ := idx1_w8 t
      refine ⟨t, flush1_8 t, ?_⟩
      rw [mem_blk1]
      intro a
      match a with
      | ⟨0, _⟩ =>
        show win1_8.index t 0 * 5000 ≤ (i 0).val ∧ (i 0).val < win1_8.index t 0 * 5000 + 5000
        rw [e80, ht]; omega
      | ⟨1, _⟩ =>
        show win1_8.index t 1 * 128 ≤ (i 1).val ∧ (i 1).val < win1_8.index t 1 * 128 + 128
        rw [e81]; omega

end

end Cert.KernelIdeal.Whole

end
-- ==== Proof.RefDot.lean ====
/-
  The reference's two later matrix products, read at an index at ANY pair of operands.

  Each is the plain product of a [50000, K] array with a [K, N] array: entry (i₀, i₁) is the sum over k of the
  left entry (i₀, k) times the right entry (k, i₁), on the extended reals, with no rounding and no order left
  in the sum. Stated for arbitrary operands so that it can be met by whatever array a kernel region left.
-/
import proofs.«159547_j46755013984836_2_alg».proof.Proof.Gen.ReferenceIdeal.Read
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.ReferenceIdeal.HostDot

open Cert.ReferenceIdeal Cert.ReferenceIdeal.Read Idealize.ShloMosaic.ValueIdx

/-- The host's product at an index, at any two operands: the sum over the contraction index, counted 0 … 127, of
    the left operand's entry (i₀, k) times the right operand's entry (k, i₁). -/
theorem dot69_apply (l : FVec Ideal S50000x128 .f32) (r : FVec Ideal S128x64 .f32) (i : S50000x64.Idx) :
    Host.dotGeneral (F := Ideal) dot_S50000x128_S128x64_S50000x64_1_0_0_1_n_n none l r i = ∑ k : Fin 128, l (lidx_main_v69 i k) * r (ridx_main_v69 i k) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = lidx_main_v69 i k := funext fun a => Fin.ext (by
    match a with
    | ⟨0, _⟩ => exact lhs_main_v69_0 _ _
    | ⟨1, _⟩ => exact (lhs_main_v69_1 _ _).trans hk)
  have er : dot_S50000x128_S128x64_S50000x64_1_0_0_1_n_n.rhsIdx i ((ValueIdx.contrEquiv1 dot_S50000x128_S128x64_S50000x64_1_0_0_1_n_n 128 rfl rfl).symm k) = ridx_main_v69 i k := funext fun a => Fin.ext (by
    match a with
    | ⟨0, _⟩ => exact (rhs_main_v69_0 _ _).trans hk
    | ⟨1, _⟩ => exact rhs_main_v69_1 _ _)
  rw [el, er]

/-- The host's product at an index, at any two operands: the sum over the contraction index, counted 0 … 63, of
    the left operand's entry (i₀, k) times the right operand's entry (k, i₁). -/
theorem dot134_apply (l : FVec Ideal S50000x64 .f32) (r : FVec Ideal S64x2 .f32) (i : S50000x2.Idx) :
    Host.dotGeneral (F := Ideal) dot_S50000x64_S64x2_S50000x2_1_0_0_1_n_n none l r i = ∑ k : Fin 64, l (lidx_main_v134 i k) * r (ridx_main_v134 i k) := by
  simp only [Host.dotGeneral]
  rw [Ideal.dotGeneral_apply, ← Equiv.sum_comp (ValueIdx.contrEquiv1 dot_S50000x64_S64x2_S50000x2_1_0_0_1_n_n 64 rfl rfl).symm]
  refine Finset.sum_congr rfl fun k _ => ?_
  have hk := ValueIdx.contrEquiv1_symm_val dot_S50000x64_S64x2_S50000x2_1_0_0_1_n_n 64 rfl rfl k
  have el : dot_S50000x64_S64x2_S50000x2_1_0_0_1_n_n.lhsIdx i ((ValueIdx.contrEquiv1 dot_S50000x64_S64x2_S50000x2_1_0_0_1_n_n 64 rfl rfl).symm k) = lidx_main_v134 i k := funext fun a => Fin.ext (by
    match a with
    | ⟨0, _⟩ => exact lhs_main_v134_0 _ _
    | ⟨1, _⟩ => exact (lhs_main_v134_1 _ _).trans hk)
  have er : dot_S50000x64_S64x2_S50000x2_1_0_0_1_n_n.rhsIdx i ((ValueIdx.contrEquiv1 dot_S50000x64_S64x2_S50000x2_1_0_0_1_n_n 64 rfl rfl).symm k) = ridx_main_v134 i k := funext fun a => Fin.ext (by
    match a with
    | ⟨0, _⟩ => exact (rhs_main_v134_0 _ _).trans hk
    | ⟨1, _⟩ => exact rhs_main_v134_1 _ _)
  rw [el, er]

end Cert.ReferenceIdeal.HostDot

end
-- ==== Proof.Region2.lean ====
/-
  The second projection, h2 = y1 · W2, as one array.

  As for the first projection: point t of the ten loads rows 5000·t … 5000·t + 4999 of y1 (all 128 columns) and
  the whole of W2, and writes back their product into the same rows of the output. Entry (r, j) of a block's
  product is the sum over k of y1[5000·t + r, k] · W2[k, j], entry (5000·t + r, j) of the whole product; the
  ten row blocks fill the array.
-/
import proofs.«159547_j46755013984836_2_alg».proof.Proof.Region0
import proofs.«159547_j46755013984836_2_alg».proof.Proof.RefDot

set_option maxRecDepth 16384

noncomputable section

open Idealize.ShloMosaic Idealize.ShloMosaic.TcCoe Idealize.SL.Sem
open Idealize.ShloMosaic.Pipeline (Dat)
open scoped BigOperators

namespace Cert.KernelIdeal.Whole

open Cert.KernelIdeal Cert.KernelIdeal.Gen Idealize.ShloMosaic.ValueIdx

variable (V : (c : Dev nD) → (b : Ref sig .tc) → Buf (Elt Ideal) ((c : Thread nD τ).loc b))

/-- Where each window's block sits at point t: the row-blocked windows at block row t, the weight at (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-! ## The body's product at an index -/

theorem lhs2_0 (j : S5000x64.Idx) (q : dot_S5000x128_S128x64_S5000x64_1_0_0_1_n_n.contr.Idx) : (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs2_1 (j : S5000x64.Idx) (q : dot_S5000x128_S128x64_S5000x64_1_0_0_1_n_n.contr.Idx) : (dot_S5000x128_S128x64_S5000x64_1_0_0_1_n_n.lhsIdx j q 1).val = (q ⟨0, by decide⟩).val :=
  dot_S5000x128_S128x64_S5000x64_1_0_0_1_n_n.lhsIdx_val_of_single rfl j q
theorem rhs2_0 (j : S5000x64.Idx) (q : dot_S5000x128_S128x64_S5000x64_1_0_0_1_n_n.contr.Idx) : (dot_S5000x128_S128x64_S5000x64_1_0_0_1_n_n.rhsIdx j q 0).val = (q ⟨0, by decide⟩).val :=
  dot_S5000x128_S128x64_S5000x64_1_0_0_1_n_n.rhsIdx_val_of_single rfl j q
theorem rhs2_1 (j : S5000x64.Idx) (q : dot_S5000x128_S128x64_S5000x64_1_0_0_1_n_n.contr.Idx) : (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (r, j) of the body's product is the sum over k of the row block's entry (r, k) times W2's entry (k, j). -/
theorem pay2_apply (xb : Vec Ideal S5000x128 .f32) (w : Vec Ideal S128x64 .f32) (j : S5000x64.Idx) :
    k2_pay1 (F := Ideal) xb w j = ∑ k : Fin 128, xb (ix2 (j 0) k) * w (ix2 k (j 1)) := by
  unfold k2_pay1
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = ix2 (j 0) k := funext fun a => Fin.ext (by
    match a with
    | ⟨0, _⟩ => exact lhs2_0 _ _
    | ⟨1, _⟩ => exact (lhs2_1 _ _).trans hk)
  have er : dot_S5000x128_S128x64_S5000x64_1_0_0_1_n_n.rhsIdx j ((ValueIdx.contrEquiv1 dot_S5000x128_S128x64_S5000x64_1_0_0_1_n_n 128 rfl rfl).symm k) = ix2 k (j 1) := funext fun a => Fin.ext (by
    match a with
    | ⟨0, _⟩ => exact (rhs2_0 _ _).trans hk
    | ⟨1, _⟩ => exact rhs2_1 _ _)
  rw [el, er]
  show shapeCast S5000x128 xb shapeCasts_S5000x128_S5000x128 (ix2 (j 0) k) * w (ix2 k (j 1)) = _
  rw [shapeCast_self]

/-! ## The input blocks as rows of the arrays -/

/-- Point t's block of y1 is rows 5000·t … 5000·t + 4999 of y1, all columns. -/
theorem iblk2_0_apply (c : Dev nD) (t : Fin cfg2.N) (y : S5000x128.Idx) (i : S50000x128.Idx)
    (h0 : (i 0).val = 5000 * t.val + (y 0).val) (h1 : (i 1).val = (y 1).val) :
    (iblk2 V c 0 t : Vec Ideal S5000x128 .f32) y = (V c main_v52 : S50000x128.Idx → Elt Ideal .f32) i := by
  obtain ⟨e00, e01, -, -, -, -⟩ := idx2 t
  unfold iblk2
  rw [View.read_apply]
  show V c main_v52 _ = V c main_v52 _
  refine congrArg (V c main_v52) ?_
  funext a
  apply Fin.ext
  match a with
  | ⟨0, _⟩ => show win2_0.index t 0 * 5000 + 1 * (y 0).val = (i 0).val; rw [e00, h0]; omega
  | ⟨1, _⟩ => show win2_0.index t 1 * 128 + 1 * (y 1).val = (i 1).val; rw [e01, h1]; omega

/-- Every point's block of W2 is the whole of W2. -/
theorem iblk2_1_apply (c : Dev nD) (t : Fin cfg2.N) (y : S128x64.Idx) :
    (iblk2 V c 1 t : Vec Ideal S128x64 .f32) y = (V c main_arg4 : S128x64.Idx → Elt Ideal .f32) y := by
  obtain ⟨-, -, e10, e11, -, -⟩ := idx2 t
  unfold iblk2
  rw [View.read_apply]
  show V c main_arg4 _ = V c main_arg4 _
  refine congrArg (V c main_arg4) ?_
  funext a
  apply Fin.ext
  match a with
  | ⟨0, _⟩ => show win2_1.index t 0 * 128 + 1 * (y 0).val = (y 0).val; rw [e10]; omega
  | ⟨1, _⟩ => show win2_1.index t 1 * 64 + 1 * (y 1).val = (y 1).val; rw [e11]; omega

/-! ## What a point writes back, and the array after the region -/

/-- Point t writes back block t of the whole product y1 · W2. -/
theorem flushed2 (c : Dev nD) (t : Fin cfg2.N) :
    (dat2 V c).flushed 2 t = ((cfg2.win 2).blk t).view.read (Elt Ideal)
      (Host.dotGeneral (F := Ideal) (φ₁ := .f32) (φ₂ := .f32) Cert.ReferenceIdeal.dot_S50000x128_S128x64_S50000x64_1_0_0_1_n_n none (V c main_v52) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨-, -, -, -, e20, e21⟩ := idx2 t
  funext j
  show k2_pay1 (F := Ideal) (iblk2 V c 0 t) (iblk2 V c 1 t) j
    = Host.dotGeneral (F := Ideal) (φ₁ := .f32) (φ₂ := .f32) Cert.ReferenceIdeal.dot_S50000x128_S128x64_S50000x64_1_0_0_1_n_n none (V c main_v52) (V c main_arg4) (((cfg2.win 2).blk t).view.emb j)
  refine (pay2_apply (iblk2 V c 0 t) (iblk2 V c 1 t) j).trans ?_
  rw [Cert.ReferenceIdeal.HostDot.dot69_apply]
  refine Finset.sum_congr rfl fun k _ => ?_
  have hx := iblk2_0_apply V c t (ix2 (j 0) k) (Cert.ReferenceIdeal.Read.lidx_main_v69 (((cfg2.win 2).blk t).view.emb j) k)
    (by show win2_2.index t 0 * 5000 + 1 * (j 0).val = 5000 * t.val + (j 0).val; rw [e20]; omega) rfl
  have hw := iblk2_1_apply V c t (ix2 k (j 1))
  have hr : (ix2 k (j 1) : S128x64.Idx) = Cert.ReferenceIdeal.Read.ridx_main_v69 (((cfg2.win 2).blk t).view.emb j) k :=
    funext fun a => Fin.ext (by
      match a with
      | ⟨0, _⟩ => rfl
      | ⟨1, _⟩ => show (j 1).val = win2_2.index t 1 * 64 + 1 * (j 1).val; rw [e21]; omega)
  rw [hx, hw, hr]

/-- An index of the output array is in point t's block iff each coordinate is in the block's range on its axis. -/
theorem mem_blk2 (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v53).slice (win2_2.rect t)).set ↔ _
  rw [View.set_slice_whole, Rect.mem_set_unit]
  exact Iff.rfl

/-- After the region the output array is the whole product y1 · W2 of the arrays the region found. -/
theorem final2 (c : Dev nD) : (dat2 V c).arrAt 2 cfg2.N
    = Host.dotGeneral (F := Ideal) (φ₁ := .f32) (φ₂ := .f32) Cert.ReferenceIdeal.dot_S50000x128_S128x64_S50000x64_1_0_0_1_n_n none (V c main_v52) (V c main_arg4) :=
  (dat2 V c).arrAt_eq_of_cover 2 (Host.dotGeneral (F := Ideal) (φ₁ := .f32) (φ₂ := .f32) Cert.ReferenceIdeal.dot_S50000x128_S128x64_S50000x64_1_0_0_1_n_n none (V c main_v52) (V c main_arg4))
    (fun t _ => flushed2 V c t) fun i => by
      have hi0 : (i 0).val < 50000 := (i 0).isLt
      have hi1 : (i 1).val < 64 := (i 1).isLt
      have hN : cfg2.N = 10 := N_2
      obtain ⟨t, ht⟩ : ∃ t : Fin cfg2.N, t.val = (i 0).val / 5000 := ⟨⟨(i 0).val / 5000, by rw [hN]; omega⟩, rfl⟩
      obtain ⟨-, -, -, -, e20, e21⟩ := idx2 t
      refine ⟨t, flush2_2 t, ?_⟩
      rw [mem_blk2]
      intro a
      match a with
      | ⟨0, _⟩ =>
        show win2_2.index t 0 * 5000 ≤ (i 0).val ∧ (i 0).val < win2_2.index t 0 * 5000 + 5000
        rw [e20, ht]; omega
      | ⟨1, _⟩ =>
        show win2_2.index t 1 * 64 ≤ (i 1).val ∧ (i 1).val < win2_2.index t 1 * 64 + 64
        rw [e21]; omega

end Cert.KernelIdeal.Whole

end
-- ==== Proof.RefLayers.lean ====
/-
  The reference's two layers after their aggregations, read at an index.

  Layer 1 at (r, j): with agg the aggregated messages, h the projection and dinv the inverse square root of the
  degree,  ((max (agg[r,j] + h[r,j] · dinv[r]² + b1[j]) 0 − mean[j]) · rsqrt (var[j] + ε)) · γ[j] + β[j].
  The broadcasts the reference spells out (a vector to a row, a row over all rows; a vector to a column, a
  column over all columns) only choose which coordinate of (r, j) each vector is read at.
-/
import proofs.«159547_j46755013984836_2_alg».proof.Proof.Gen.ReferenceIdeal.Read
import Idealize.ShloMosaic.Lib.ValueIdx

set_option maxRecDepth 16384

noncomputable section

open Idealize.ShloMosaic Idealize.ShloMosaic.TcCoe Idealize.SL.Sem
open Idealize.ShloMosaic.Pipeline (Dat)
open scoped BigOperators

namespace Cert.ReferenceIdeal.Layers

open Cert.ReferenceIdeal Cert.ReferenceIdeal.Read Idealize.ShloMosaic.ValueIdx

/-- The first layer's output at (r, j), from the aggregation, the projection and the squared inverse degree at that
    row and the five parameter vectors at that column. -/
theorem ref68_apply (x0 : FVec Ideal S50000x256 .f32) (x1 : (⟨S2x1600000, .i32⟩ : BufTy).Contents (Elt Ideal))
    (x2 : FVec Ideal S256x128 .f32) (x3 x6 x7 x8 x9 : FVec Ideal S128 .f32) (i : S50000x128.Idx) :
    val_main_v68 (F := Ideal) x0 x1 x2 x3 x6 x7 x8 x9 i
      = (max (val_main_v44 (F := Ideal) x0 x1 x2 i + val_main_v4 (F := Ideal) x0 x2 i * val_main_v45 (F := Ideal) x1 (ix1 (i 0)) + x3 (ix1 (i 1)))
            (FloatOps.ofBits (F := Ideal) .f32 0x00000000#32) - x8 (ix1 (i 1)))
          * FloatOps.rsqrt (F := Ideal) (φ := .f32) (x9 (ix1 (i 1)) + FloatOps.ofBits (F := Ideal) .f32 0x3727C5AC#32) * x6 (ix1 (i 1)) + x7 (ix1 (i 1)) := by
  rw [val_main_v68_apply, val_main_v65_apply, val_main_v62_apply, val_main_v56_apply, val_main_v53_apply, val_main_v52_apply,
    val_main_v49_apply, val_main_v48_apply, val_main_v47_apply, val_main_v46_apply, val_main_v51_apply, val_main_v50_apply,
    val_main_call0_v0_apply, val_main_call0_cst_apply, val_main_v55_apply, val_main_v54_apply, val_main_v61_apply, val_main_v60_apply,
    val_main_v59_apply, val_main_v58_apply, val_main_v57_apply, val_main_cst_10_apply, val_main_v64_apply, val_main_v63_apply,
    val_main_v67_apply, val_main_v66_apply]
  have e45 : (idx_main_v46 (idx_main_v47 i) : S50000.Idx) = ix1 (i 0) := funext fun a => Fin.ext (by match a with | ⟨0, _⟩ => rfl)
  have e3 : (idx_main_v50 (idx_main_v51 i) : S128.Idx) = ix1 (i 1) := funext fun a => Fin.ext (by match a with | ⟨0, _⟩ => rfl)
  have e8 : (idx_main_v54 (idx_main_v55 i) : S128.Idx) = ix1 (i 1) := funext fun a => Fin.ext (by match a with | ⟨0, _⟩ => rfl)
  have e9 : (idx_main_v60 (idx_main_v61 i) : S128.Idx) = ix1 (i 1) := funext fun a => Fin.ext (by match a with | ⟨0, _⟩ => rfl)
  have e6 : (idx_main_v63 (idx_main_v64 i) : S128.Idx) = ix1 (i 1) := funext fun a => Fin.ext (by match a with | ⟨0, _⟩ => rfl)
  have e7 : (idx_main_v66 (idx_main_v67 i) : S128.Idx) = ix1 (i 1) := funext fun a => Fin.ext (by match a with | ⟨0, _⟩ => rfl)
  rw [e45, e3, e8, e9, e6, e7]
  rfl

/-- The second layer's normalised output at (r, k), from the second aggregation, the second projection and the
    squared inverse degree at that row and the five parameter vectors at that column. -/
theorem ref133_apply (x0 : FVec Ideal S50000x256 .f32) (x1 : (⟨S2x1600000, .i32⟩ : BufTy).Contents (Elt Ideal))
    (x2 : FVec Ideal S256x128 .f32) (x3 : FVec Ideal S128 .f32) (x4 : FVec Ideal S128x64 .f32) (x5 : FVec Ideal S64 .f32)
    (x6 x7 x8 x9 : FVec Ideal S128 .f32) (x10 x11 x12 x13 : FVec Ideal S64 .f32) (i : S50000x64.Idx) :
    val_main_v133 (F := Ideal) x0 x1 x2 x3 x4 x5 x6 x7 x8 x9 x10 x11 x12 x13 i
      = (max (val_main_v109 (F := Ideal) x0 x1 x2 x3 x4 x6 x7 x8 x9 i + val_main_v69 (F := Ideal) x0 x1 x2 x3 x4 x6 x7 x8 x9 i * val_main_v110 (F := Ideal) x1 (ix1 (i 0)) + x5 (ix1 (i 1)))
            (FloatOps.ofBits (F := Ideal) .f32 0x00000000#32) - x12 (ix1 (i 1)))
          * FloatOps.rsqrt (F := Ideal) (φ := .f32) (x13 (ix1 (i 1)) + FloatOps.ofBits (F := Ideal) .f32 0x3727C5AC#32) * x10 (ix1 (i 1)) + x11 (ix1 (i 1)) := by
  rw [val_main_v133_apply, val_main_v130_apply, val_main_v127_apply, val_main_v121_apply, val_main_v118_apply, val_main_v117_apply, val_main_v114_apply, val_main_v113_apply, val_main_v112_apply, val_main_v111_apply, val_main_v116_apply, val_main_v115_apply, val_main_call1_v0_apply, val_main_call1_cst_apply, val_main_v120_apply, val_main_v119_apply, val_main_v126_apply, val_main_v125_apply, val_main_v124_apply, val_main_v123_apply, val_main_v122_apply, val_main_cst_23_apply, val_main_v129_apply, val_main_v128_apply, val_main_v132_apply, val_main_v131_apply]
  have e110 : (idx_main_v111 (idx_main_v112 i) : S50000.Idx) = ix1 (i 0) := funext fun a => Fin.ext (by match a with | ⟨0, _⟩ => rfl)
  have e5 : (idx_main_v115 (idx_main_v116 i) : S64.Idx) = ix1 (i 1) := funext fun a => Fin.ext (by match a with | ⟨0, _⟩ => rfl)
  have e12 : (idx_main_v119 (idx_main_v120 i) : S64.Idx) = ix1 (i 1) := funext fun a => Fin.ext (by match a with | ⟨0, _⟩ => rfl)
  have e13 : (idx_main_v125 (idx_main_v126 i) : S64.Idx) = ix1 (i 1) := funext fun a => Fin.ext (by match a with | ⟨0, _⟩ => rfl)
  have e10 : (idx_main_v128 (idx_main_v129 i) : S64.Idx) = ix1 (i 1) := funext fun a => Fin.ext (by match a with | ⟨0, _⟩ => rfl)
  have e11 : (idx_main_v131 (idx_main_v132 i) : S64.Idx) = ix1 (i 1) := funext fun a => Fin.ext (by match a with | ⟨0, _⟩ => rfl)
  rw [e110, e5, e12, e13, e10, e11]
  rfl

/-- The reference's result at (r, q): the normalised second layer's row r times column q of the last weight
    matrix, plus the output bias at q. -/
theorem ref137_apply (x0 : FVec Ideal S50000x256 .f32) (x1 : (⟨S2x1600000, .i32⟩ : BufTy).Contents (Elt Ideal))
    (x2 : FVec Ideal S256x128 .f32) (x3 : FVec Ideal S128 .f32) (x4 : FVec Ideal S128x64 .f32) (x5 : FVec Ideal S64 .f32)
    (x6 x7 x8 x9 : FVec Ideal S128 .f32) (x10 x11 x12 x13 : FVec Ideal S64 .f32) (x14 : FVec Ideal S64x2 .f32) (x15 : FVec Ideal S2 .f32)
    (i : S50000x2.Idx) :
    val_main_v137 (F := Ideal) x0 x1 x2 x3 x4 x5 x6 x7 x8 x9 x10 x11 x12 x13 x14 x15 i
      = (∑ k : Fin 64, val_main_v133 (F := Ideal) x0 x1 x2 x3 x4 x5 x6 x7 x8 x9 x10 x11 x12 x13 (ix2 (i 0) k) * x14 (ix2 k (i 1))) + x15 (ix1 (i 1)) := by
  rw [val_main_v137_apply]
  show val_main_v134 (F := Ideal) x0 x1 x2 x3 x4 x5 x6 x7 x8 x9 x10 x11 x12 x13 x14 i + val_main_v136 (F := Ideal) x15 i = _
  rw [val_main_v134_apply, val_main_v136_apply, val_main_v135_apply]
  have e15 : (idx_main_v135 (idx_main_v136 i) : S2.Idx) = ix1 (i 1) := funext fun a => Fin.ext (by match a with | ⟨0, _⟩ => rfl)
  rw [e15]
  refine congrArg (· + x15 (ix1 (i 1))) (Finset.sum_congr rfl fun k _ => ?_)
  have el : (lidx_main_v134 i k : S50000x64.Idx) = ix2 (i 0) k := funext fun a => Fin.ext (by match a with | ⟨0, _⟩ => rfl | ⟨1, _⟩ => rfl)
  have er : (ridx_main_v134 i k : S64x2.Idx) = ix2 k (i 1) := funext fun a => Fin.ext (by match a with | ⟨0, _⟩ => rfl | ⟨1, _⟩ => rfl)
  rw [el, er] <;> rfl

end Cert.ReferenceIdeal.Layers

end
-- ==== Proof.Stages1.lean ====
/-
  The buffers from the first region to the second host stretch.

  The first region leaves the whole product x · W1 in its output array and every other buffer as it found it.
  The second host stretch gathers that product's rows at the source indices, scales each by its edge's weight
  and adds them into the rows named by the destination indices: the same host operations as the reference's
  aggregation, on arrays already known to be the reference's. It also reshapes five parameter vectors to rows.
-/
import proofs.«159547_j46755013984836_2_alg».proof.Proof.Stages0
import proofs.«159547_j46755013984836_2_alg».proof.Proof.Region0
import proofs.«159547_j46755013984836_2_alg».proof.Proof.Region1
import proofs.«159547_j46755013984836_2_alg».proof.Proof.Region2
import proofs.«159547_j46755013984836_2_alg».proof.Proof.RefLayers
import proofs.«159547_j46755013984836_2_alg».proof.Proof.LibColumnLayout
import Idealize.ShloMosaic.Lib.ValueLayout

set_option maxRecDepth 16384

noncomputable section

open Idealize.ShloMosaic Idealize.ShloMosaic.TcCoe Idealize.SL.Sem
open scoped BigOperators

namespace Cert.KernelIdeal.Whole

open Cert.KernelIdeal Cert.KernelIdeal.Gen Idealize.ShloMosaic.StableHlo Idealize.ShloMosaic.ValueIdx Idealize.ShloMosaic.ColumnLayout

variable (m : (ℓ : Loc nD τ sig) → Buf (Elt Ideal) ℓ) (ρ : Dev nD → PrngReg)

/-! ## After the first region -/

/-- An argument array as the first region finds it. -/
theorem v1_arg0 (c : Dev nD) : V1 m ρ c main_arg0 = (m ((c : Thread nD τ).loc main_arg0)) := keeps0_arg0 (W0 m ρ c)
theorem v1_arg2 (c : Dev nD) : V1 m ρ c main_arg2 = (m ((c : Thread nD τ).loc main_arg2)) := keeps0_arg2 (W0 m ρ c)

/-- After the first region its output array holds the reference's first projection. -/
theorem w2_v34 (c : Dev nD) : (W2 m ρ c (Proc.devRef .tc main_v34) : S50000x128.Idx → Elt Ideal .f32)
    = Cert.ReferenceIdeal.Read.val_main_v4 (F := Ideal) (m ((c : Thread nD τ).loc main_arg0)) (m ((c : Thread nD τ).loc main_arg2)) := by
  refine (W2_arr m ρ c 2).trans ((final0 (V1 m ρ) c).trans ?_)
  rw [v1_arg0, v1_arg2]

/-- The first region leaves the graph quantities as the first stretch computed them. -/
theorem w2_v1 (c : Dev nD) : (W2 m ρ c (Proc.devRef .tc main_v1) : S1600000.Idx → Elt Ideal .i32) = Cert.ReferenceIdeal.Read.val_main_v1 (F := Ideal) (m ((c : Thread nD τ).loc main_arg1)) :=
  (W2_of_ne m ρ c main_v1 (by decide)).trans (s0_v1 m ρ c)
theorem w2_v3 (c : Dev nD) : (W2 m ρ c (Proc.devRef .tc main_v3) : S1600000.Idx → Elt Ideal .i32) = Cert.ReferenceIdeal.Read.val_main_v3 (F := Ideal) (m ((c : Thread nD τ).loc main_arg1)) :=
  (W2_of_ne m ρ c main_v3 (by decide)).trans (s0_v3 m ρ c)

/-- The weight column, as the reference spells it: the weight vector broadcast along axis 0 into a column. -/
theorem w2_v31 (c : Dev nD) : (W2 m ρ c (Proc.devRef .tc main_v31) : S1600000x1.Idx → Elt Ideal .f32) = Cert.ReferenceIdeal.Read.val_main_v39 (F := Ideal) (m ((c : Thread nD τ).loc main_arg1)) := by
  refine (W2_of_ne m ρ c main_v31 (by decide)).trans ((s0_v31 m ρ c).trans ?_)
  unfold Cert.ReferenceIdeal.Read.val_main_v39
  exact shapeCast_a_a1_eq_broadcastInDim _ _ _ rfl _

/-! ## After the second host stretch -/

set_option maxHeartbeats 4000000 in
/-- The aggregated first-layer messages: the product's rows gathered at the source indices, scaled by the edge
    weights and added into the rows the destination indices name. -/
theorem w3_v46 (c : Dev nD) : (W3 m ρ c (Proc.devRef .tc main_v46) : S50000x128.Idx → Elt Ideal .f32)
    = Cert.ReferenceIdeal.Read.val_main_v44 (F := Ideal) (m ((c : Thread nD τ).loc main_arg0)) (m ((c : Thread nD τ).loc main_arg1)) (m ((c : Thread nD τ).loc main_arg2)) := by
  show StableHlo.after hostOps1 (W2 m ρ c) (Proc.devRef .tc main_v46) = _
  after_results_simp
  rw [w2_v34, w2_v31, w2_v3, w2_v1]
  unfold Cert.ReferenceIdeal.Read.val_main_v44 Cert.ReferenceIdeal.Read.val_main_v43 Cert.ReferenceIdeal.Read.val_main_v42 Cert.ReferenceIdeal.Read.val_main_cst_9 Cert.ReferenceIdeal.Read.val_main_v41 Cert.ReferenceIdeal.Read.val_main_v40 Cert.ReferenceIdeal.Read.val_main_v38 Cert.ReferenceIdeal.Read.val_main_v37 Cert.ReferenceIdeal.Read.val_main_v36 Cert.ReferenceIdeal.Read.val_main_v35 Cert.ReferenceIdeal.Read.val_main_v34 Cert.ReferenceIdeal.Read.val_main_c_8 Cert.ReferenceIdeal.Read.val_main_v33 Cert.ReferenceIdeal.Read.val_main_v32 Cert.ReferenceIdeal.Read.val_main_c_7
  rfl

/-- The second stretch leaves the first projection and the squared inverse degrees as it found them. -/
theorem w3_v34 (c : Dev nD) : (W3 m ρ c (Proc.devRef .tc main_v34) : S50000x128.Idx → Elt Ideal .f32)
    = Cert.ReferenceIdeal.Read.val_main_v4 (F := Ideal) (m ((c : Thread nD τ).loc main_arg0)) (m ((c : Thread nD τ).loc main_arg2)) :=
  (keeps1_v34 (W2 m ρ c)).trans (w2_v34 m ρ c)

theorem w3_v33 (c : Dev nD) : (W3 m ρ c (Proc.devRef .tc main_v33) : S50000x1.Idx → Elt Ideal .f32)
    = shapeCast S50000x1 (Cert.ReferenceIdeal.Read.val_main_v45 (F := Ideal) (m ((c : Thread nD τ).loc main_arg1))) shapeCasts_S50000_S50000x1 :=
  (keeps1_v33 (W2 m ρ c)).trans ((W2_of_ne m ρ c main_v33 (by decide)).trans (s0_v33 m ρ c))

/-! ## The parameter rows after the second host stretch -/

theorem w2_arg3 (c : Dev nD) : W2 m ρ c (Proc.devRef .tc main_arg3) = (m ((c : Thread nD τ).loc main_arg3)) :=
  (W2_of_ne m ρ c main_arg3 (by decide)).trans (keeps0_arg3 (W0 m ρ c))
theorem w2_arg4 (c : Dev nD) : W2 m ρ c (Proc.devRef .tc main_arg4) = (m ((c : Thread nD τ).loc main_arg4)) :=
  (W2_of_ne m ρ c main_arg4 (by decide)).trans (keeps0_arg4 (W0 m ρ c))
theorem w2_arg6 (c : Dev nD) : W2 m ρ c (Proc.devRef .tc main_arg6) = (m ((c : Thread nD τ).loc main_arg6)) :=
  (W2_of_ne m ρ c main_arg6 (by decide)).trans (keeps0_arg6 (W0 m ρ c))
theorem w2_arg7 (c : Dev nD) : W2 m ρ c (Proc.devRef .tc main_arg7) = (m ((c : Thread nD τ).loc main_arg7)) :=
  (W2_of_ne m ρ c main_arg7 (by decide)).trans (keeps0_arg7 (W0 m ρ c))
theorem w2_arg8 (c : Dev nD) : W2 m ρ c (Proc.devRef .tc main_arg8) = (m ((c : Thread nD τ).loc main_arg8)) :=
  (W2_of_ne m ρ c main_arg8 (by decide)).trans (keeps0_arg8 (W0 m ρ c))
theorem w2_arg9 (c : Dev nD) : W2 m ρ c (Proc.devRef .tc main_arg9) = (m ((c : Thread nD τ).loc main_arg9)) :=
  (W2_of_ne m ρ c main_arg9 (by decide)).trans (keeps0_arg9 (W0 m ρ c))

set_option maxHeartbeats 4000000 in
theorem w3_v47 (c : Dev nD) (q : Fin 128) :
    (W3 m ρ c (Proc.devRef .tc main_v47) : S1x128.Idx → Elt Ideal .f32) (ix2 (0 : Fin 1) q) = (m ((c : Thread nD τ).loc main_arg3)) (ix1 q) := by
  have e : (W3 m ρ c (Proc.devRef .tc main_v47) : S1x128.Idx → Elt Ideal .f32)
      = shapeCast S1x128 (m ((c : Thread nD τ).loc main_arg3)) shapeCasts_S128_S1x128 := by
    show StableHlo.after hostOps1 (W2 m ρ c) (Proc.devRef .tc main_v47) = _
    after_results_simp
    rw [w2_arg3]
    rfl
  rw [e]
  exact shapeCast_a_1a_apply _ _ _ _
set_option maxHeartbeats 4000000 in
theorem w3_v48 (c : Dev nD) (q : Fin 128) :
    (W3 m ρ c (Proc.devRef .tc main_v48) : S1x128.Idx → Elt Ideal .f32) (ix2 (0 : Fin 1) q) = (m ((c : Thread nD τ).loc main_arg6)) (ix1 q) := by
  have e : (W3 m ρ c (Proc.devRef .tc main_v48) : S1x128.Idx → Elt Ideal .f32)
      = shapeCast S1x128 (m ((c : Thread nD τ).loc main_arg6)) shapeCasts_S128_S1x128 := by
    show StableHlo.after hostOps1 (W2 m ρ c) (Proc.devRef .tc main_v48) = _
    after_results_simp
    rw [w2_arg6]
    rfl
  rw [e]
  exact shapeCast_a_1a_apply _ _ _ _
set_option maxHeartbeats 4000000 in
theorem w3_v49 (c : Dev nD) (q : Fin 128) :
    (W3 m ρ c (Proc.devRef .tc main_v49) : S1x128.Idx → Elt Ideal .f32) (ix2 (0 : Fin 1) q) = (m ((c : Thread nD τ).loc main_arg7)) (ix1 q) := by
  have e : (W3 m ρ c (Proc.devRef .tc main_v49) : S1x128.Idx → Elt Ideal .f32)
      = shapeCast S1x128 (m ((c : Thread nD τ).loc main_arg7)) shapeCasts_S128_S1x128 := by
    show StableHlo.after hostOps1 (W2 m ρ c) (Proc.devRef .tc main_v49) = _
    after_results_simp
    rw [w2_arg7]
    rfl
  rw [e]
  exact shapeCast_a_1a_apply _ _ _ _
set_option maxHeartbeats 4000000 in
theorem w3_v50 (c : Dev nD) (q : Fin 128) :
    (W3 m ρ c (Proc.devRef .tc main_v50) : S1x128.Idx → Elt Ideal .f32) (ix2 (0 : Fin 1) q) = (m ((c : Thread nD τ).loc main_arg8)) (ix1 q) := by
  have e : (W3 m ρ c (Proc.devRef .tc main_v50) : S1x128.Idx → Elt Ideal .f32)
      = shapeCast S1x128 (m ((c : Thread nD τ).loc main_arg8)) shapeCasts_S128_S1x128 := by
    show StableHlo.after hostOps1 (W2 m ρ c) (Proc.devRef .tc main_v50) = _
    after_results_simp
    rw [w2_arg8]
    rfl
  rw [e]
  exact shapeCast_a_1a_apply _ _ _ _
set_option maxHeartbeats 4000000 in
theorem w3_v51 (c : Dev nD) (q : Fin 128) :
    (W3 m ρ c (Proc.devRef .tc main_v51) : S1x128.Idx → Elt Ideal .f32) (ix2 (0 : Fin 1) q) = (m ((c : Thread nD τ).loc main_arg9)) (ix1 q) := by
  have e : (W3 m ρ c (Proc.devRef .tc main_v51) : S1x128.Idx → Elt Ideal .f32)
      = shapeCast S1x128 (m ((c : Thread nD τ).loc main_arg9)) shapeCasts_S128_S1x128 := by
    show StableHlo.after hostOps1 (W2 m ρ c) (Proc.devRef .tc main_v51) = _
    after_results_simp
    rw [w2_arg9]
    rfl
  rw [e]
  exact shapeCast_a_1a_apply _ _ _ _

/-! ## After the second region: the normalised first layer -/

/-- The second region leaves the reference's normalised first layer in its output array: its inputs are the
    reference's aggregation, projection and squared inverse degrees and the five parameter vectors as rows, and
    the reference's layer at an index is the same combine, ReLU and normalisation of them. -/
theorem w4_v52 (c : Dev nD) : (W4 m ρ c (Proc.devRef .tc main_v52) : S50000x128.Idx → Elt Ideal .f32)
    = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) :=
  (W4_arr m ρ c 8).trans
    (final1 (V3 m ρ) c (Cert.ReferenceIdeal.Read.val_main_v44 (F := Ideal) (m ((c : Thread nD τ).loc main_arg0)) (m ((c : Thread nD τ).loc main_arg1)) (m ((c : Thread nD τ).loc main_arg2))) (Cert.ReferenceIdeal.Read.val_main_v4 (F := Ideal) (m ((c : Thread nD τ).loc main_arg0)) (m ((c : Thread nD τ).loc main_arg2))) (Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)))
      (Cert.ReferenceIdeal.Read.val_main_v45 (F := Ideal) (m ((c : Thread nD τ).loc main_arg1))) (m ((c : Thread nD τ).loc main_arg3)) (m ((c : Thread nD τ).loc main_arg6)) (m ((c : Thread nD τ).loc main_arg7)) (m ((c : Thread nD τ).loc main_arg8)) (m ((c : Thread nD τ).loc main_arg9))
      (w3_v46 m ρ c) (w3_v34 m ρ c)
      (fun p => (congrFun (w3_v33 m ρ c) _).trans (shapeCast_a_a1_apply _ _ p))
      (w3_v47 m ρ c) (w3_v48 m ρ c) (w3_v49 m ρ c) (w3_v50 m ρ c) (w3_v51 m ρ c)
      (fun i => Cert.ReferenceIdeal.Layers.ref68_apply _ _ _ _ _ _ _ _ i))

/-! ## After the third region: the second projection -/

theorem w4_arg4 (c : Dev nD) : W4 m ρ c (Proc.devRef .tc main_arg4) = (m ((c : Thread nD τ).loc main_arg4)) :=
  (W4_of_ne m ρ c main_arg4 (by decide)).trans ((keeps1_arg4 (W2 m ρ c)).trans (w2_arg4 m ρ c))

/-- The third region leaves the reference's second projection in its output array: the whole product of the
    normalised first layer with W2. -/
theorem w5_v53 (c : Dev nD) : (W5 m ρ c (Proc.devRef .tc main_v53) : S50000x64.Idx → Elt Ideal .f32)
    = Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) := by
  refine (W5_arr m ρ c 2).trans ((final2 (V4 m ρ) c).trans ?_)
  show Host.dotGeneral (F := Ideal) (φ₁ := .f32) (φ₂ := .f32) Cert.ReferenceIdeal.dot_S50000x128_S128x64_S50000x64_1_0_0_1_n_n none
      (W4 m ρ c (Proc.devRef .tc main_v52)) (W4 m ρ c (Proc.devRef .tc main_arg4)) = _
  rw [w4_v52, w4_arg4]
  unfold Cert.ReferenceIdeal.Read.val_main_v69
  rfl

end Cert.KernelIdeal.Whole

end
-- ==== Proof.Region3.lean ====
/-
  The second layer's combine, ReLU, batch normalisation and the final linear map, as one array.

  Point t of the ten loads rows 5000·t … 5000·t + 4999 of the aggregated messages agg, of the projection h and
  of the column dinv², the whole of five parameter rows b, γ, β, mean, var (64 entries each), of the 64 × 2
  matrix Wl and of the row bl, and writes back, at (r, q) of its block,
      Σ_k  y[R, k] · Wl[k, q]  +  bl[q],        R = 5000·t + r,
  where  y[R, k] = ((max (agg[R, k] + h[R, k] · dinv²[R] + b[k]) 0 − mean[k]) · rsqrt (var[k] + ε)) · γ[k] + β[k]
  is the normalised second layer. The product is the matrix unit's into a zero accumulator; its inputs' change
  of float format is the identity on the extended reals. The ten row blocks fill the [50000, 2] array. Stated
  for arbitrary arrays, for any array Y that is the normalised layer of them and any G that is Y · Wl + bl.
-/
import proofs.«159547_j46755013984836_2_alg».proof.Proof.Region0
import proofs.«159547_j46755013984836_2_alg».proof.Proof.LibColumnLayout
import Idealize.ShloMosaic.Lib.ValueLayout

set_option maxRecDepth 16384

noncomputable section

open Idealize.ShloMosaic Idealize.ShloMosaic.TcCoe Idealize.SL.Sem
open Idealize.ShloMosaic.Pipeline (Dat)
open scoped BigOperators

namespace Cert.KernelIdeal.Whole

open Cert.KernelIdeal Cert.KernelIdeal.Gen Idealize.ShloMosaic.ValueIdx Idealize.ShloMosaic.ColumnLayout

variable (V : (c : Dev nD) → (b : Ref sig .tc) → Buf (Elt Ideal) ((c : Thread nD τ).loc b))

/-! ## Where each window's block sits at point t -/

theorem idx3_w0 : ∀ t : Fin cfg3.N, win3_0.index t (0 : Fin 2) = t.val ∧ win3_0.index t (1 : Fin 2) = 0 :=
  (by decide +kernel : ∀ t : Fin grid3.N, _)
theorem idx3_w1 : ∀ t : Fin cfg3.N, win3_1.index t (0 : Fin 2) = t.val ∧ win3_1.index t (1 : Fin 2) = 0 :=
  (by decide +kernel : ∀ t : Fin grid3.N, _)
theorem idx3_w2 : ∀ t : Fin cfg3.N, win3_2.index t (0 : Fin 2) = t.val ∧ win3_2.index t (1 : Fin 2) = 0 :=
  (by decide +kernel : ∀ t : Fin grid3.N, _)
theorem idx3_w10 : ∀ t : Fin cfg3.N, win3_10.index t (0 : Fin 2) = t.val ∧ win3_10.index t (1 : Fin 2) = 0 :=
  (by decide +kernel : ∀ t : Fin grid3.N, _)
theorem idx3_w3 : ∀ t : Fin cfg3.N, win3_3.index t (0 : Fin 2) = 0 ∧ win3_3.index t (1 : Fin 2) = 0 :=
  (by decide +kernel : ∀ t : Fin grid3.N, _)
theorem idx3_w4 : ∀ t : Fin cfg3.N, win3_4.index t (0 : Fin 2) = 0 ∧ win3_4.index t (1 : Fin 2) = 0 :=
  (by decide +kernel : ∀ t : Fin grid3.N, _)
theorem idx3_w5 : ∀ t : Fin cfg3.N, win3_5.index t (0 : Fin 2) = 0 ∧ win3_5.index t (1 : Fin 2) = 0 :=
  (by decide +kernel : ∀ t : Fin grid3.N, _)
theorem idx3_w6 : ∀ t : Fin cfg3.N, win3_6.index t (0 : Fin 2) = 0 ∧ win3_6.index t (1 : Fin 2) = 0 :=
  (by decide +kernel : ∀ t : Fin grid3.N, _)
theorem idx3_w7 : ∀ t : Fin cfg3.N, win3_7.index t (0 : Fin 2) = 0 ∧ win3_7.index t (1 : Fin 2) = 0 :=
  (by decide +kernel : ∀ t : Fin grid3.N, _)
theorem idx3_w8 : ∀ t : Fin cfg3.N, win3_8.index t (0 : Fin 2) = 0 ∧ win3_8.index t (1 : Fin 2) = 0 :=
  (by decide +kernel : ∀ t : Fin grid3.N, _)
theorem idx3_w9 : ∀ t : Fin cfg3.N, win3_9.index t (0 : Fin 2) = 0 ∧ win3_9.index t (1 : Fin 2) = 0 :=
  (by decide +kernel : ∀ t : Fin grid3.N, _)

/-! ## The body's value at an index -/

theorem lhs3_0 (j : S5000x2.Idx) (q : dot_S5000x64_S64x2_S5000x2_1_0_0_1_n_n.contr.Idx) : (dot_S5000x64_S64x2_S5000x2_1_0_0_1_n_n.lhsIdx j q 0).val = (j 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
theorem lhs3_1 (j : S5000x2.Idx) (q : dot_S5000x64_S64x2_S5000x2_1_0_0_1_n_n.contr.Idx) : (dot_S5000x64_S64x2_S5000x2_1_0_0_1_n_n.lhsIdx j q 1).val = (q ⟨0, by decide⟩).val :=
  dot_S5000x64_S64x2_S5000x2_1_0_0_1_n_n.lhsIdx_val_of_single rfl j q
theorem rhs3_0 (j : S5000x2.Idx) (q : dot_S5000x64_S64x2_S5000x2_1_0_0_1_n_n.contr.Idx) : (dot_S5000x64_S64x2_S5000x2_1_0_0_1_n_n.rhsIdx j q 0).val = (q ⟨0, by decide⟩).val :=
  dot_S5000x64_S64x2_S5000x2_1_0_0_1_n_n.rhsIdx_val_of_single rfl j q
theorem rhs3_1 (j : S5000x2.Idx) (q : dot_S5000x64_S64x2_S5000x2_1_0_0_1_n_n.contr.Idx) : (dot_S5000x64_S64x2_S5000x2_1_0_0_1_n_n.rhsIdx j q 1).val = (j 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl

/-- The row rsqrt (var + ε), read at an index. -/
theorem rsqrt_row64_apply (var : Vec Ideal S1x64 .f32) (y : S1x64.Idx) :
    (rsqrt (addf var (broadcast S1x64 (FloatOps.ofBits (F := Ideal) .f32 0x3727C5AC#32))) : FVec Ideal S1x64 .f32) y
      = FloatOps.rsqrt (F := Ideal) (φ := .f32) (var y + FloatOps.ofBits (F := Ideal) .f32 0x3727C5AC#32) := rfl

/-- At (r, q) the body's product is the sum over k of the normalised block's entry (r, k) times Wl's entry (k, q). -/
theorem pay3_mm_apply_ix (a h : Vec Ideal S5000x64 .f32) (d : Vec Ideal S5000x1 .f32) (b g be mu var : Vec Ideal S1x64 .f32)
    (w : Vec Ideal S64x2 .f32) (p : Fin 5000) (q : Fin 2) :
    k3_pay2 (F := Ideal) a h d b g be mu var w (ix2 p q)
      = ∑ k : Fin 64, ((max (a (ix2 p k) + h (ix2 p k) * d (ix2 p (0 : Fin 1)) + b (ix2 (0 : Fin 1) k)) (FloatOps.ofBits (F := Ideal) .f32 0x00000000#32) - mu (ix2 (0 : Fin 1) k))
          * FloatOps.rsqrt (F := Ideal) (φ := .f32) (var (ix2 (0 : Fin 1) k) + FloatOps.ofBits (F := Ideal) .f32 0x3727C5AC#32) * g (ix2 (0 : Fin 1) k) + be (ix2 (0 : Fin 1) k)) * w (ix2 k q) := by
  unfold k3_pay2
  simp only [matmul]
  rw [Ideal.matmul_constant_zero_apply, ← Equiv.sum_comp (ValueIdx.contrEquiv1 dot_S5000x64_S64x2_S5000x2_1_0_0_1_n_n 64 rfl rfl).symm]
  refine Finset.sum_congr rfl fun k _ => ?_
  have hk := ValueIdx.contrEquiv1_symm_val dot_S5000x64_S64x2_S5000x2_1_0_0_1_n_n 64 rfl rfl k
  have el : dot_S5000x64_S64x2_S5000x2_1_0_0_1_n_n.lhsIdx (ix2 p q) ((ValueIdx.contrEquiv1 dot_S5000x64_S64x2_S5000x2_1_0_0_1_n_n 64 rfl rfl).symm k) = ix2 p k := funext fun a => Fin.ext (by
    match a with
    | ⟨0, _⟩ => exact lhs3_0 _ _
    | ⟨1, _⟩ => exact (lhs3_1 _ _).trans hk)
  have er : dot_S5000x64_S64x2_S5000x2_1_0_0_1_n_n.rhsIdx (ix2 p q) ((ValueIdx.contrEquiv1 dot_S5000x64_S64x2_S5000x2_1_0_0_1_n_n 64 rfl rfl).symm k) = ix2 k q := funext fun a => Fin.ext (by
    match a with
    | ⟨0, _⟩ => exact (rhs3_0 _ _).trans hk
    | ⟨1, _⟩ => exact rhs3_1 _ _)
  rw [el, er]
  simp only [truncf_apply, shapeCast_self, addf_apply, mulf_apply, subf_apply, maximumf_apply, broadcast_apply]
  rw [broadcastTo_a1_ab_apply d, broadcastTo_1b_ab_apply b, broadcastTo_1b_ab_apply mu, broadcastTo_1b_ab_apply g,
    broadcastTo_1b_ab_apply be, broadcastTo_1b_ab_apply, rsqrt_row64_apply]

/-- Adding the bias row: at (r, q) the stored value is the product's entry (r, q) plus bl's entry q. -/
theorem pay3_bias_apply_ix (v : FVec Ideal S5000x2 .f32) (bl : Vec Ideal S1x2 .f32) (p : Fin 5000) (q : Fin 2) :
    k3_pay1 (F := Ideal) v bl (ix2 p q) = v (ix2 p q) + bl (ix2 (0 : Fin 1) q) := by
  unfold k3_pay1
  simp only [shapeCast_self, addf_apply]
  rw [broadcastTo_1b_ab_apply]

/-- The stored value at any index of the block, written through its two coordinates. -/
theorem pay3_apply (a h : Vec Ideal S5000x64 .f32) (d : Vec Ideal S5000x1 .f32) (b g be mu var : Vec Ideal S1x64 .f32)
    (w : Vec Ideal S64x2 .f32) (bl : Vec Ideal S1x2 .f32) (j : S5000x2.Idx) :
    k3_pay1 (F := Ideal) (k3_pay2 (F := Ideal) a h d b g be mu var w) bl j
      = (∑ k : Fin 64, ((max (a (ix2 (j 0) k) + h (ix2 (j 0) k) * d (ix2 (j 0) (0 : Fin 1)) + b (ix2 (0 : Fin 1) k)) (FloatOps.ofBits (F := Ideal) .f32 0x00000000#32) - mu (ix2 (0 : Fin 1) k))
          * FloatOps.rsqrt (F := Ideal) (φ := .f32) (var (ix2 (0 : Fin 1) k) + FloatOps.ofBits (F := Ideal) .f32 0x3727C5AC#32) * g (ix2 (0 : Fin 1) k) + be (ix2 (0 : Fin 1) k)) * w (ix2 k (j 1)))
        + bl (ix2 (0 : Fin 1) (j 1)) := by
  obtain ⟨p, q, rfl⟩ : ∃ (p : Fin 5000) (q : Fin 2), j = ix2 p q := ⟨j 0, j 1, eq_ix2 j⟩
  rw [pay3_bias_apply_ix, pay3_mm_apply_ix]

/-! ## The input blocks as rows of the arrays -/

/-- Point t's block of the aggregated messages is rows 5000·t … 5000·t + 4999 of it, all columns. -/
theorem iblk3_0_apply (c : Dev nD) (t : Fin cfg3.N) (y : S5000x64.Idx) (i : S50000x64.Idx)
    (h0 : (i 0).val = 5000 * t.val + (y 0).val) (h1 : (i 1).val = (y 1).val) :
    (iblk3 V c 0 t : Vec Ideal S5000x64 .f32) y = (V c main_v65 : S50000x64.Idx → Elt Ideal .f32) i := by
  obtain ⟨e0, e1⟩ := idx3_w0 t
  unfold iblk3
  rw [View.read_apply]
  show V c main_v65 _ = V c main_v65 _
  refine congrArg (V c main_v65) ?_
  funext a
  apply Fin.ext
  match a with
  | ⟨0, _⟩ => show win3_0.index t 0 * 5000 + 1 * (y 0).val = (i 0).val; rw [e0, h0]; omega
  | ⟨1, _⟩ => show win3_0.index t 1 * 64 + 1 * (y 1).val = (i 1).val; rw [e1, h1]; omega

/-- Point t's block of the projection is rows 5000·t … 5000·t + 4999 of it, all columns. -/
theorem iblk3_1_apply (c : Dev nD) (t : Fin cfg3.N) (y : S5000x64.Idx) (i : S50000x64.Idx)
    (h0 : (i 0).val = 5000 * t.val + (y 0).val) (h1 : (i 1).val = (y 1).val) :
    (iblk3 V c 1 t : Vec Ideal S5000x64 .f32) y = (V c main_v53 : S50000x64.Idx → Elt Ideal .f32) i := by
  obtain ⟨e0, e1⟩ := idx3_w1 t
  unfold iblk3
  rw [View.read_apply]
  show V c main_v53 _ = V c main_v53 _
  refine congrArg (V c main_v53) ?_
  funext a
  apply Fin.ext
  match a with
  | ⟨0, _⟩ => show win3_1.index t 0 * 5000 + 1 * (y 0).val = (i 0).val; rw [e0, h0]; omega
  | ⟨1, _⟩ => show win3_1.index t 1 * 64 + 1 * (y 1).val = (i 1).val; rw [e1, h1]; omega

/-- Point t's block of the column of squared inverse degrees is rows 5000·t … 5000·t + 4999 of it, all columns. -/
theorem iblk3_2_apply (c : Dev nD) (t : Fin cfg3.N) (y : S5000x1.Idx) (i : S50000x1.Idx)
    (h0 : (i 0).val = 5000 * t.val + (y 0).val) (h1 : (i 1).val = (y 1).val) :
    (iblk3 V c 2 t : Vec Ideal S5000x1 .f32) y = (V c main_v33 : S50000x1.Idx → Elt Ideal .f32) i := by
  obtain ⟨e0, e1⟩ := idx3_w2 t
  unfold iblk3
  rw [View.read_apply]
  show V c main_v33 _ = V c main_v33 _
  refine congrArg (V c main_v33) ?_
  funext a
  apply Fin.ext
  match a with
  | ⟨0, _⟩ => show win3_2.index t 0 * 5000 + 1 * (y 0).val = (i 0).val; rw [e0, h0]; omega
  | ⟨1, _⟩ => show win3_2.index t 1 * 1 + 1 * (y 1).val = (i 1).val; rw [e1, h1]; omega

/-- Every point's block of the bias row is the whole of it. -/
theorem iblk3_3_apply (c : Dev nD) (t : Fin cfg3.N) (y : S1x64.Idx) :
    (iblk3 V c 3 t : Vec Ideal S1x64 .f32) y = (V c main_v66 : S1x64.Idx → Elt Ideal .f32) y := by
  obtain ⟨e0, e1⟩ := idx3_w3 t
  unfold iblk3
  rw [View.read_apply]
  show V c main_v66 _ = V c main_v66 _
  refine congrArg (V c main_v66) ?_
  funext a
  apply Fin.ext
  match a with
  | ⟨0, _⟩ => show win3_3.index t 0 * 1 + 1 * (y 0).val = (y 0).val; rw [e0]; omega
  | ⟨1, _⟩ => show win3_3.index t 1 * 64 + 1 * (y 1).val = (y 1).val; rw [e1]; omega

/-- Every point's block of the scale row γ is the whole of it. -/
theorem iblk3_4_apply (c : Dev nD) (t : Fin cfg3.N) (y : S1x64.Idx) :
    (iblk3 V c 4 t : Vec Ideal S1x64 .f32) y = (V c main_v67 : S1x64.Idx → Elt Ideal .f32) y := by
  obtain ⟨e0, e1⟩ := idx3_w4 t
  unfold iblk3
  rw [View.read_apply]
  show V c main_v67 _ = V c main_v67 _
  refine congrArg (V c main_v67) ?_
  funext a
  apply Fin.ext
  match a with
  | ⟨0, _⟩ => show win3_4.index t 0 * 1 + 1 * (y 0).val = (y 0).val; rw [e0]; omega
  | ⟨1, _⟩ => show win3_4.index t 1 * 64 + 1 * (y 1).val = (y 1).val; rw [e1]; omega

/-- Every point's block of the shift row β is the whole of it. -/
theorem iblk3_5_apply (c : Dev nD) (t : Fin cfg3.N) (y : S1x64.Idx) :
    (iblk3 V c 5 t : Vec Ideal S1x64 .f32) y = (V c main_v68 : S1x64.Idx → Elt Ideal .f32) y := by
  obtain ⟨e0, e1⟩ := idx3_w5 t
  unfold iblk3
  rw [View.read_apply]
  show V c main_v68 _ = V c main_v68 _
  refine congrArg (V c main_v68) ?_
  funext a
  apply Fin.ext
  match a with
  | ⟨0, _⟩ => show win3_5.index t 0 * 1 + 1 * (y 0).val = (y 0).val; rw [e0]; omega
  | ⟨1, _⟩ => show win3_5.index t 1 * 64 + 1 * (y 1).val = (y 1).val; rw [e1]; omega

/-- Every point's block of the mean row is the whole of it. -/
theorem iblk3_6_apply (c : Dev nD) (t : Fin cfg3.N) (y : S1x64.Idx) :
    (iblk3 V c 6 t : Vec Ideal S1x64 .f32) y = (V c main_v69 : S1x64.Idx → Elt Ideal .f32) y := by
  obtain ⟨e0, e1⟩ := idx3_w6 t
  unfold iblk3
  rw [View.read_apply]
  show V c main_v69 _ = V c main_v69 _
  refine congrArg (V c main_v69) ?_
  funext a
  apply Fin.ext
  match a with
  | ⟨0, _⟩ => show win3_6.index t 0 * 1 + 1 * (y 0).val = (y 0).val; rw [e0]; omega
  | ⟨1, _⟩ => show win3_6.index t 1 * 64 + 1 * (y 1).val = (y 1).val; rw [e1]; omega

/-- Every point's block of the variance row is the whole of it. -/
theorem iblk3_7_apply (c : Dev nD) (t : Fin cfg3.N) (y : S1x64.Idx) :
    (iblk3 V c 7 t : Vec Ideal S1x64 .f32) y = (V c main_v70 : S1x64.Idx → Elt Ideal .f32) y := by
  obtain ⟨e0, e1⟩ := idx3_w7 t
  unfold iblk3
  rw [View.read_apply]
  show V c main_v70 _ = V c main_v70 _
  refine congrArg (V c main_v70) ?_
  funext a
  apply Fin.ext
  match a with
  | ⟨0, _⟩ => show win3_7.index t 0 * 1 + 1 * (y 0).val = (y 0).val; rw [e0]; omega
  | ⟨1, _⟩ => show win3_7.index t 1 * 64 + 1 * (y 1).val = (y 1).val; rw [e1]; omega

/-- Every point's block of the matrix Wl is the whole of it. -/
theorem iblk3_8_apply (c : Dev nD) (t : Fin cfg3.N) (y : S64x2.Idx) :
    (iblk3 V c 8 t : Vec Ideal S64x2 .f32) y = (V c main_arg14 : S64x2.Idx → Elt Ideal .f32) y := by
  obtain ⟨e0, e1⟩ := idx3_w8 t
  unfold iblk3
  rw [View.read_apply]
  show V c main_arg14 _ = V c main_arg14 _
  refine congrArg (V c main_arg14) ?_
  funext a
  apply Fin.ext
  match a with
  | ⟨0, _⟩ => show win3_8.index t 0 * 64 + 1 * (y 0).val = (y 0).val; rw [e0]; omega
  | ⟨1, _⟩ => show win3_8.index t 1 * 2 + 1 * (y 1).val = (y 1).val; rw [e1]; omega

/-- Every point's block of the output bias row is the whole of it. -/
theorem iblk3_9_apply (c : Dev nD) (t : Fin cfg3.N) (y : S1x2.Idx) :
    (iblk3 V c 9 t : Vec Ideal S1x2 .f32) y = (V c main_v71 : S1x2.Idx → Elt Ideal .f32) y := by
  obtain ⟨e0, e1⟩ := idx3_w9 t
  unfold iblk3
  rw [View.read_apply]
  show V c main_v71 _ = V c main_v71 _
  refine congrArg (V c main_v71) ?_
  funext a
  apply Fin.ext
  match a with
  | ⟨0, _⟩ => show win3_9.index t 0 * 1 + 1 * (y 0).val = (y 0).val; rw [e0]; omega
  | ⟨1, _⟩ => show win3_9.index t 1 * 2 + 1 * (y 1).val = (y 1).val; rw [e1]; omega

/-! ## What a point writes back, and the array after the region -/

section
variable (c : Dev nD) (agg h Y : FVec Ideal S50000x64 .f32) (dsq : FVec Ideal S50000 .f32) (b g be mu var : FVec Ideal S64 .f32) (w : FVec Ideal S64x2 .f32) (bl : FVec Ideal S2 .f32)
  (G : FVec Ideal S50000x2 .f32)
  (hagg : (V c main_v65 : S50000x64.Idx → Elt Ideal .f32) = agg)
  (hh : (V c main_v53 : S50000x64.Idx → Elt Ideal .f32) = h)
  (hd : ∀ p : Fin 50000, (V c main_v33 : S50000x1.Idx → Elt Ideal .f32) (ix2 p (0 : Fin 1)) = dsq (ix1 p))
  (hb : ∀ q : Fin 64, (V c main_v66 : S1x64.Idx → Elt Ideal .f32) (ix2 (0 : Fin 1) q) = b (ix1 q))
  (hg : ∀ q : Fin 64, (V c main_v67 : S1x64.Idx → Elt Ideal .f32) (ix2 (0 : Fin 1) q) = g (ix1 q))
  (hbe : ∀ q : Fin 64, (V c main_v68 : S1x64.Idx → Elt Ideal .f32) (ix2 (0 : Fin 1) q) = be (ix1 q))
  (hmu : ∀ q : Fin 64, (V c main_v69 : S1x64.Idx → Elt Ideal .f32) (ix2 (0 : Fin 1) q) = mu (ix1 q))
  (hvar : ∀ q : Fin 64, (V c main_v70 : S1x64.Idx → Elt Ideal .f32) (ix2 (0 : Fin 1) q) = var (ix1 q))
  (hw : (V c main_arg14 : S64x2.Idx → Elt Ideal .f32) = w)
  (hbl : ∀ q : Fin 2, (V c main_v71 : S1x2.Idx → Elt Ideal .f32) (ix2 (0 : Fin 1) q) = bl (ix1 q))
  (hY : ∀ (r : Fin 50000) (k : Fin 64), Y (ix2 r k)
      = (max (agg (ix2 r k) + h (ix2 r k) * dsq (ix1 r) + b (ix1 k)) (FloatOps.ofBits (F := Ideal) .f32 0x00000000#32) - mu (ix1 k))
          * FloatOps.rsqrt (F := Ideal) (φ := .f32) (var (ix1 k) + FloatOps.ofBits (F := Ideal) .f32 0x3727C5AC#32) * g (ix1 k) + be (ix1 k))
  (hG : ∀ i : S50000x2.Idx, G i = (∑ k : Fin 64, Y (ix2 (i 0) k) * w (ix2 k (i 1))) + bl (ix1 (i 1)))

include hagg hh hd hb hg hbe hmu hvar hw hbl hY hG in
/-- Point t writes back block t of G. -/
theorem flushed3 (t : Fin cfg3.N) :
    (dat3 V c).flushed 10 t = ((cfg3.win 10).blk t).view.read (Elt Ideal) G := by
  show (cfg3.win 10).cut (grid3.coords t) ((dat3 V c).after 10 t) = _
  rw [after3_10]
  unfold out3_10
  rw [View.canon_unit_zero hz]
  simp only [View.ld_unit_zero (S := S5000x64) hz, View.ld_unit_zero (S := S5000x1) hz, View.ld_unit_zero (S := S1x64) hz,
    View.ld_unit_zero (S := S64x2) hz, View.ld_unit_zero (S := S1x2) hz]
  obtain ⟨e0, e1⟩ := idx3_w10 t
  funext j
  show k3_pay1 (F := Ideal) (k3_pay2 (F := Ideal) (iblk3 V c 0 t) (iblk3 V c 1 t) (iblk3 V c 2 t) (iblk3 V c 3 t) (iblk3 V c 4 t) (iblk3 V c 5 t) (iblk3 V c 6 t) (iblk3 V c 7 t) (iblk3 V c 8 t)) (iblk3 V c 9 t) j
    = G (((cfg3.win 10).blk t).view.emb j)
  refine (pay3_apply (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) j).trans ?_
  rw [hG]
  -- the row and the column of the array index this block index sits at
  have r0 : ((((cfg3.win 10).blk t).view.emb j) 0).val = 5000 * t.val + (j 0).val := by
    show win3_10.index t 0 * 5000 + 1 * (j 0).val = 5000 * t.val + (j 0).val; rw [e0]; omega
  have r1 : ((((cfg3.win 10).blk t).view.emb j) 1).val = (j 1).val := by
    show win3_10.index t 1 * 2 + 1 * (j 1).val = (j 1).val; rw [e1]; omega
  have hcol : (((cfg3.win 10).blk t).view.emb j) 1 = j 1 := Fin.ext r1
  rw [hcol]
  have hbl' := (iblk3_9_apply V c t (ix2 (0 : Fin 1) (j 1))).trans (hbl (j 1))
  rw [hbl']
  refine congrArg (· + bl (ix1 (j 1))) (Finset.sum_congr rfl fun k _ => ?_)
  have ha := (iblk3_0_apply V c t (ix2 (j 0) k) (ix2 ((((cfg3.win 10).blk t).view.emb j) 0) k) r0 rfl).trans (congrFun hagg _)
  have hh' := (iblk3_1_apply V c t (ix2 (j 0) k) (ix2 ((((cfg3.win 10).blk t).view.emb j) 0) k) r0 rfl).trans (congrFun hh _)
  have hd' := (iblk3_2_apply V c t (ix2 (j 0) (0 : Fin 1)) (ix2 ((((cfg3.win 10).blk t).view.emb j) 0) (0 : Fin 1)) r0 rfl).trans (hd _)
  have hb' := (iblk3_3_apply V c t (ix2 (0 : Fin 1) k)).trans (hb k)
  have hg' := (iblk3_4_apply V c t (ix2 (0 : Fin 1) k)).trans (hg k)
  have hbe' := (iblk3_5_apply V c t (ix2 (0 : Fin 1) k)).trans (hbe k)
  have hmu' := (iblk3_6_apply V c t (ix2 (0 : Fin 1) k)).trans (hmu k)
  have hvar' := (iblk3_7_apply V c t (ix2 (0 : Fin 1) k)).trans (hvar k)
  have hw' := (iblk3_8_apply V c t (ix2 k (j 1))).trans (congrFun hw _)
  rw [ha, hh', hd', hb', hg', hbe', hmu', hvar', hw']
  exact (congrArg (· * w (ix2 k (j 1))) (hY ((((cfg3.win 10).blk t).view.emb j) 0) k)).symm

/-- An index of the output array is in point t's block iff each coordinate is in the block's range on its axis. -/
theorem mem_blk3 (t : Fin cfg3.N) (i : S50000x2.Idx) :
    i ∈ ((cfg3.win 10).blk t).view.set ↔ ∀ a : Fin 2, win3_10.index t a * S5000x2.size a ≤ (i a).val
      ∧ (i a).val < win3_10.index t a * S5000x2.size a + S5000x2.size a := by
  show i ∈ ((View.whole main_v72).slice (win3_10.rect t)).set ↔ _
  rw [View.set_slice_whole, Rect.mem_set_unit]
  exact Iff.rfl

include hagg hh hd hb hg hbe hmu hvar hw hbl hY hG in
/-- After the region the result array is G: row R lies in the block of point R / 5000, and every point writes
    its block back. -/
theorem final3 : (dat3 V c).arrAt 10 cfg3.N = G :=
  (dat3 V c).arrAt_eq_of_cover 10 G
    (fun t _ => flushed3 V c agg h Y dsq b g be mu var w bl G hagg hh hd hb hg hbe hmu hvar hw hbl hY hG t) fun i => by
      have hi0 : (i 0).val < 50000 := (i 0).isLt
      have hi1 : (i 1).val < 2 := (i 1).isLt
      have hN : cfg3.N = 10 := N_3
      obtain ⟨t, ht⟩ : ∃ t : Fin cfg3.N, t.val = (i 0).val / 5000 := ⟨⟨(i 0).val / 5000, by rw [hN]; omega⟩, rfl⟩
      obtain ⟨e0, e1⟩ := idx3_w10 t
      refine ⟨t, flush3_10 t, ?_⟩
      rw [mem_blk3]
      intro a
      match a with
      | ⟨0, _⟩ =>
        show win3_10.index t 0 * 5000 ≤ (i 0).val ∧ (i 0).val < win3_10.index t 0 * 5000 + 5000
        rw [e0, ht]; omega
      | ⟨1, _⟩ =>
        show win3_10.index t 1 * 2 ≤ (i 1).val ∧ (i 1).val < win3_10.index t 1 * 2 + 2
        rw [e1]; omega

end

end Cert.KernelIdeal.Whole

end
-- ==== Proof.RefRepeat.lean ====
/-
  The reference computes its graph quantities once per layer; the second computation equals the first.

  Both layers call the same function of the edge array: the inverse square root of each node's degree, the
  per-edge weight dinv[src] · dinv[dst], and dinv². The second layer's stages are the first layer's
  operations again, applied to the same source and destination indices, so stage by stage they are the same
  arrays: no property of the operations is used, only that equal operations of equal arguments are equal.
-/
import proofs.«159547_j46755013984836_2_alg».proof.Proof.Gen.ReferenceIdeal.Read

set_option maxRecDepth 16384

noncomputable section

open Idealize.ShloMosaic Idealize.ShloMosaic.TcCoe Idealize.SL.Sem
open Idealize.ShloMosaic.Pipeline (Dat)
open scoped BigOperators

namespace Cert.ReferenceIdeal.Repeat

open Cert.ReferenceIdeal Cert.ReferenceIdeal.Read

variable {F : FTy → Type} [FloatOps F]

/-- The inverse square-root degrees, computed for the second layer, are the first layer's. -/
theorem v81_eq (x1 : (⟨S2x1600000, .i32⟩ : BufTy).Contents (Elt F)) : val_main_v81 (F := F) x1 = val_main_v16 (F := F) x1 := by
  unfold val_main_v81 val_main_v80 val_main_v79 val_main_cst_15 val_main_v78 val_main_v77 val_main_cst_14 val_main_v76 val_main_v75 val_main_v74 val_main_v73 val_main_c_13 val_main_v72 val_main_v71 val_main_c_12 val_main_v70 val_main_cst_11 val_main_v16 val_main_v15 val_main_v14 val_main_cst_2 val_main_v13 val_main_v12 val_main_cst_1 val_main_v11 val_main_v10 val_main_v9 val_main_v8 val_main_c_0 val_main_v7 val_main_v6 val_main_c val_main_v5 val_main_cst
  rfl

/-- The per-edge weights, computed for the second layer, are the first layer's. -/
theorem v96_eq (x1 : (⟨S2x1600000, .i32⟩ : BufTy).Contents (Elt F)) : val_main_v96 (F := F) x1 = val_main_v31 (F := F) x1 := by
  unfold val_main_v96 val_main_v88 val_main_v87 val_main_v86 val_main_v85 val_main_v84 val_main_c_17 val_main_v83 val_main_v82 val_main_c_16 val_main_v95 val_main_v94 val_main_v93 val_main_v92 val_main_v91 val_main_c_19 val_main_v90 val_main_v89 val_main_c_18 val_main_v31 val_main_v23 val_main_v22 val_main_v21 val_main_v20 val_main_v19 val_main_c_4 val_main_v18 val_main_v17 val_main_c_3 val_main_v30 val_main_v29 val_main_v28 val_main_v27 val_main_v26 val_main_c_6 val_main_v25 val_main_v24 val_main_c_5
  rw [v81_eq]

/-- So is their column. -/
theorem v104_eq (x1 : (⟨S2x1600000, .i32⟩ : BufTy).Contents (Elt F)) : val_main_v104 (F := F) x1 = val_main_v39 (F := F) x1 := by
  unfold val_main_v104 val_main_v39
  rw [v96_eq]

/-- The squared inverse square-root degrees, computed for the second layer, are the first layer's. -/
theorem v110_eq (x1 : (⟨S2x1600000, .i32⟩ : BufTy).Contents (Elt F)) : val_main_v110 (F := F) x1 = val_main_v45 (F := F) x1 := by
  unfold val_main_v110 val_main_v45
  rw [v81_eq]

end Cert.ReferenceIdeal.Repeat

end
-- ==== Proof.Stages3.lean ====
/-
  The buffers from the third region to the result.

  The graph quantities computed before the first region are still in their buffers: no later host operation
  writes them, and a region either does not hold them or only reads them through an input window. The last host
  stretch aggregates the second projection exactly as the second did the first, with the same edge weights;
  the reference recomputes those weights for its second layer, and the recomputation equals the first
  computation. The last region then leaves the reference's result in the result array.
-/
import proofs.«159547_j46755013984836_2_alg».proof.Proof.Stages1
import proofs.«159547_j46755013984836_2_alg».proof.Proof.Region3
import proofs.«159547_j46755013984836_2_alg».proof.Proof.RefRepeat

set_option maxRecDepth 16384

noncomputable section

open Idealize.ShloMosaic Idealize.ShloMosaic.TcCoe Idealize.SL.Sem
open scoped BigOperators

namespace Cert.KernelIdeal.Whole

open Cert.KernelIdeal Cert.KernelIdeal.Gen Idealize.ShloMosaic.StableHlo Idealize.ShloMosaic.ValueIdx Idealize.ShloMosaic.ColumnLayout

variable (m : (ℓ : Loc nD τ sig) → Buf (Elt Ideal) ℓ) (ρ : Dev nD → PrngReg)

/-! ## The graph quantities and the parameters as the last host stretch finds them -/

theorem w5_v1 (c : Dev nD) : (W5 m ρ c (Proc.devRef .tc main_v1) : S1600000.Idx → Elt Ideal .i32) = Cert.ReferenceIdeal.Read.val_main_v1 (F := Ideal) (m ((c : Thread nD τ).loc main_arg1)) :=
  (W5_of_ne m ρ c main_v1 (by decide)).trans ((W4_of_ne m ρ c main_v1 (by decide)).trans ((keeps1_v1 (W2 m ρ c)).trans (w2_v1 m ρ c)))
theorem w5_v3 (c : Dev nD) : (W5 m ρ c (Proc.devRef .tc main_v3) : S1600000.Idx → Elt Ideal .i32) = Cert.ReferenceIdeal.Read.val_main_v3 (F := Ideal) (m ((c : Thread nD τ).loc main_arg1)) :=
  (W5_of_ne m ρ c main_v3 (by decide)).trans ((W4_of_ne m ρ c main_v3 (by decide)).trans ((keeps1_v3 (W2 m ρ c)).trans (w2_v3 m ρ c)))

/-- The weight column, as the reference's second layer spells it. -/
theorem w5_v31 (c : Dev nD) : (W5 m ρ c (Proc.devRef .tc main_v31) : S1600000x1.Idx → Elt Ideal .f32) = Cert.ReferenceIdeal.Read.val_main_v104 (F := Ideal) (m ((c : Thread nD τ).loc main_arg1)) :=
  (W5_of_ne m ρ c main_v31 (by decide)).trans ((W4_of_ne m ρ c main_v31 (by decide)).trans
    ((keeps1_v31 (W2 m ρ c)).trans ((w2_v31 m ρ c).trans (Cert.ReferenceIdeal.Repeat.v104_eq _).symm)))

/-- The column of squared inverse degrees: the second region reads it through an input window and leaves its
    array as it was. -/
theorem w5_v33 (c : Dev nD) : (W5 m ρ c (Proc.devRef .tc main_v33) : S50000x1.Idx → Elt Ideal .f32)
    = shapeCast S50000x1 (Cert.ReferenceIdeal.Read.val_main_v45 (F := Ideal) (m ((c : Thread nD τ).loc main_arg1))) shapeCasts_S50000_S50000x1 :=
  (W5_of_ne m ρ c main_v33 (by decide)).trans
    (((W4_arr m ρ c 2).trans (((dat1 (V3 m ρ) c).arrAt_in 2 rfl _).trans (A_eq1 (V3 m ρ) c 2))).trans (w3_v33 m ρ c))

theorem w5_arg5 (c : Dev nD) : W5 m ρ c (Proc.devRef .tc main_arg5) = (m ((c : Thread nD τ).loc main_arg5)) :=
  (W5_of_ne m ρ c main_arg5 (by decide)).trans ((W4_of_ne m ρ c main_arg5 (by decide)).trans
    ((keeps1_arg5 (W2 m ρ c)).trans ((W2_of_ne m ρ c main_arg5 (by decide)).trans (keeps0_arg5 (W0 m ρ c)))))
theorem w5_arg10 (c : Dev nD) : W5 m ρ c (Proc.devRef .tc main_arg10) = (m ((c : Thread nD τ).loc main_arg10)) :=
  (W5_of_ne m ρ c main_arg10 (by decide)).trans ((W4_of_ne m ρ c main_arg10 (by decide)).trans
    ((keeps1_arg10 (W2 m ρ c)).trans ((W2_of_ne m ρ c main_arg10 (by decide)).trans (keeps0_arg10 (W0 m ρ c)))))
theorem w5_arg11 (c : Dev nD) : W5 m ρ c (Proc.devRef .tc main_arg11) = (m ((c : Thread nD τ).loc main_arg11)) :=
  (W5_of_ne m ρ c main_arg11 (by decide)).trans ((W4_of_ne m ρ c main_arg11 (by decide)).trans
    ((keeps1_arg11 (W2 m ρ c)).trans ((W2_of_ne m ρ c main_arg11 (by decide)).trans (keeps0_arg11 (W0 m ρ c)))))
theorem w5_arg12 (c : Dev nD) : W5 m ρ c (Proc.devRef .tc main_arg12) = (m ((c : Thread nD τ).loc main_arg12)) :=
  (W5_of_ne m ρ c main_arg12 (by decide)).trans ((W4_of_ne m ρ c main_arg12 (by decide)).trans
    ((keeps1_arg12 (W2 m ρ c)).trans ((W2_of_ne m ρ c main_arg12 (by decide)).trans (keeps0_arg12 (W0 m ρ c)))))
theorem w5_arg13 (c : Dev nD) : W5 m ρ c (Proc.devRef .tc main_arg13) = (m ((c : Thread nD τ).loc main_arg13)) :=
  (W5_of_ne m ρ c main_arg13 (by decide)).trans ((W4_of_ne m ρ c main_arg13 (by decide)).trans
    ((keeps1_arg13 (W2 m ρ c)).trans ((W2_of_ne m ρ c main_arg13 (by decide)).trans (keeps0_arg13 (W0 m ρ c)))))
theorem w5_arg14 (c : Dev nD) : W5 m ρ c (Proc.devRef .tc main_arg14) = (m ((c : Thread nD τ).loc main_arg14)) :=
  (W5_of_ne m ρ c main_arg14 (by decide)).trans ((W4_of_ne m ρ c main_arg14 (by decide)).trans
    ((keeps1_arg14 (W2 m ρ c)).trans ((W2_of_ne m ρ c main_arg14 (by decide)).trans (keeps0_arg14 (W0 m ρ c)))))
theorem w5_arg15 (c : Dev nD) : W5 m ρ c (Proc.devRef .tc main_arg15) = (m ((c : Thread nD τ).loc main_arg15)) :=
  (W5_of_ne m ρ c main_arg15 (by decide)).trans ((W4_of_ne m ρ c main_arg15 (by decide)).trans
    ((keeps1_arg15 (W2 m ρ c)).trans ((W2_of_ne m ρ c main_arg15 (by decide)).trans (keeps0_arg15 (W0 m ρ c)))))

/-! ## After the last host stretch -/

set_option maxHeartbeats 4000000 in
/-- The aggregated second-layer messages. -/
theorem w6_v65 (c : Dev nD) : (W6 m ρ c (Proc.devRef .tc main_v65) : S50000x64.Idx → Elt Ideal .f32)
    = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) := by
  show StableHlo.after hostOps3 (W5 m ρ c) (Proc.devRef .tc main_v65) = _
  after_results_simp
  rw [w5_v53, w5_v31, w5_v3, w5_v1]
  unfold Cert.ReferenceIdeal.Read.val_main_v109 Cert.ReferenceIdeal.Read.val_main_v108 Cert.ReferenceIdeal.Read.val_main_v107 Cert.ReferenceIdeal.Read.val_main_cst_22 Cert.ReferenceIdeal.Read.val_main_v106 Cert.ReferenceIdeal.Read.val_main_v105 Cert.ReferenceIdeal.Read.val_main_v103 Cert.ReferenceIdeal.Read.val_main_v102 Cert.ReferenceIdeal.Read.val_main_v101 Cert.ReferenceIdeal.Read.val_main_v100 Cert.ReferenceIdeal.Read.val_main_v99 Cert.ReferenceIdeal.Read.val_main_c_21 Cert.ReferenceIdeal.Read.val_main_v98 Cert.ReferenceIdeal.Read.val_main_v97 Cert.ReferenceIdeal.Read.val_main_c_20
  rfl

theorem w6_v53 (c : Dev nD) : (W6 m ρ c (Proc.devRef .tc main_v53) : S50000x64.Idx → Elt Ideal .f32) = Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) :=
  (keeps3_v53 (W5 m ρ c)).trans (w5_v53 m ρ c)

theorem w6_v33 (c : Dev nD) : (W6 m ρ c (Proc.devRef .tc main_v33) : S50000x1.Idx → Elt Ideal .f32)
    = shapeCast S50000x1 (Cert.ReferenceIdeal.Read.val_main_v45 (F := Ideal) (m ((c : Thread nD τ).loc main_arg1))) shapeCasts_S50000_S50000x1 :=
  (keeps3_v33 (W5 m ρ c)).trans (w5_v33 m ρ c)

theorem w6_arg14 (c : Dev nD) : W6 m ρ c (Proc.devRef .tc main_arg14) = (m ((c : Thread nD τ).loc main_arg14)) :=
  (keeps3_arg14 (W5 m ρ c)).trans (w5_arg14 m ρ c)

set_option maxHeartbeats 4000000 in
theorem w6_v66 (c : Dev nD) (q : Fin 64) :
    (W6 m ρ c (Proc.devRef .tc main_v66) : S1x64.Idx → Elt Ideal .f32) (ix2 (0 : Fin 1) q) = (m ((c : Thread nD τ).loc main_arg5)) (ix1 q) := by
  have e : (W6 m ρ c (Proc.devRef .tc main_v66) : S1x64.Idx → Elt Ideal .f32)
      = shapeCast S1x64 (m ((c : Thread nD τ).loc main_arg5)) shapeCasts_S64_S1x64 := by
    show StableHlo.after hostOps3 (W5 m ρ c) (Proc.devRef .tc main_v66) = _
    after_results_simp
    rw [w5_arg5]
    rfl
  rw [e]
  exact shapeCast_a_1a_apply _ _ _ _
set_option maxHeartbeats 4000000 in
theorem w6_v67 (c : Dev nD) (q : Fin 64) :
    (W6 m ρ c (Proc.devRef .tc main_v67) : S1x64.Idx → Elt Ideal .f32) (ix2 (0 : Fin 1) q) = (m ((c : Thread nD τ).loc main_arg10)) (ix1 q) := by
  have e : (W6 m ρ c (Proc.devRef .tc main_v67) : S1x64.Idx → Elt Ideal .f32)
      = shapeCast S1x64 (m ((c : Thread nD τ).loc main_arg10)) shapeCasts_S64_S1x64 := by
    show StableHlo.after hostOps3 (W5 m ρ c) (Proc.devRef .tc main_v67) = _
    after_results_simp
    rw [w5_arg10]
    rfl
  rw [e]
  exact shapeCast_a_1a_apply _ _ _ _
set_option maxHeartbeats 4000000 in
theorem w6_v68 (c : Dev nD) (q : Fin 64) :
    (W6 m ρ c (Proc.devRef .tc main_v68) : S1x64.Idx → Elt Ideal .f32) (ix2 (0 : Fin 1) q) = (m ((c : Thread nD τ).loc main_arg11)) (ix1 q) := by
  have e : (W6 m ρ c (Proc.devRef .tc main_v68) : S1x64.Idx → Elt Ideal .f32)
      = shapeCast S1x64 (m ((c : Thread nD τ).loc main_arg11)) shapeCasts_S64_S1x64 := by
    show StableHlo.after hostOps3 (W5 m ρ c) (Proc.devRef .tc main_v68) = _
    after_results_simp
    rw [w5_arg11]
    rfl
  rw [e]
  exact shapeCast_a_1a_apply _ _ _ _
set_option maxHeartbeats 4000000 in
theorem w6_v69 (c : Dev nD) (q : Fin 64) :
    (W6 m ρ c (Proc.devRef .tc main_v69) : S1x64.Idx → Elt Ideal .f32) (ix2 (0 : Fin 1) q) = (m ((c : Thread nD τ).loc main_arg12)) (ix1 q) := by
  have e : (W6 m ρ c (Proc.devRef .tc main_v69) : S1x64.Idx → Elt Ideal .f32)
      = shapeCast S1x64 (m ((c : Thread nD τ).loc main_arg12)) shapeCasts_S64_S1x64 := by
    show StableHlo.after hostOps3 (W5 m ρ c) (Proc.devRef .tc main_v69) = _
    after_results_simp
    rw [w5_arg12]
    rfl
  rw [e]
  exact shapeCast_a_1a_apply _ _ _ _
set_option maxHeartbeats 4000000 in
theorem w6_v70 (c : Dev nD) (q : Fin 64) :
    (W6 m ρ c (Proc.devRef .tc main_v70) : S1x64.Idx → Elt Ideal .f32) (ix2 (0 : Fin 1) q) = (m ((c : Thread nD τ).loc main_arg13)) (ix1 q) := by
  have e : (W6 m ρ c (Proc.devRef .tc main_v70) : S1x64.Idx → Elt Ideal .f32)
      = shapeCast S1x64 (m ((c : Thread nD τ).loc main_arg13)) shapeCasts_S64_S1x64 := by
    show StableHlo.after hostOps3 (W5 m ρ c) (Proc.devRef .tc main_v70) = _
    after_results_simp
    rw [w5_arg13]
    rfl
  rw [e]
  exact shapeCast_a_1a_apply _ _ _ _
set_option maxHeartbeats 4000000 in
theorem w6_v71 (c : Dev nD) (q : Fin 2) :
    (W6 m ρ c (Proc.devRef .tc main_v71) : S1x2.Idx → Elt Ideal .f32) (ix2 (0 : Fin 1) q) = (m ((c : Thread nD τ).loc main_arg15)) (ix1 q) := by
  have e : (W6 m ρ c (Proc.devRef .tc main_v71) : S1x2.Idx → Elt Ideal .f32)
      = shapeCast S1x2 (m ((c : Thread nD τ).loc main_arg15)) shapeCasts_S2_S1x2 := by
    show StableHlo.after hostOps3 (W5 m ρ c) (Proc.devRef .tc main_v71) = _
    after_results_simp
    rw [w5_arg15]
    rfl
  rw [e]
  exact shapeCast_a_1a_apply _ _ _ _

/-! ## The result -/

/-- The last region leaves the reference's result in the result array. -/
theorem w7_v72 (c : Dev nD) : (W7 m ρ c (Proc.devRef .tc main_v72) : S50000x2.Idx → Elt Ideal .f32)
    = Cert.ReferenceIdeal.Read.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (W7_arr m ρ c 10).trans
    (final3 (V6 m ρ) c (Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (Cert.ReferenceIdeal.Read.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
      (Cert.ReferenceIdeal.Read.val_main_v110 (F := Ideal) (m ((c : Thread nD τ).loc main_arg1))) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      (Cert.ReferenceIdeal.Read.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))
      (w6_v65 m ρ c) (w6_v53 m ρ c)
      (fun p => (congrFun (w6_v33 m ρ c) _).trans ((shapeCast_a_a1_apply _ _ p).trans (congrFun (Cert.ReferenceIdeal.Repeat.v110_eq _).symm _)))
      (w6_v66 m ρ c) (w6_v67 m ρ c) (w6_v68 m ρ c) (w6_v69 m ρ c) (w6_v70 m ρ c)
      (w6_arg14 m ρ c) (w6_v71 m ρ c)
      (fun r k => Cert.ReferenceIdeal.Layers.ref133_apply _ _ _ _ _ _ _ _ _ _ _ _ _ _ (ix2 r k))
      (fun i => Cert.ReferenceIdeal.Layers.ref137_apply _ _ _ _ _ _ _ _ _ _ _ _ _ _ _ _ i))

end Cert.KernelIdeal.Whole

end
-- ==== Proof.lean ====
/-
  The graph network's Pallas implementation against its jax.numpy reference, on the extended reals.

  Both programs compute, for 50000 nodes with 256 features and 1.6 million edges,
      y1  = BN1 (relu (A · (x · W1) + b1)),     out = BN2 (relu (A · (y1 · W2) + b2)) · Wl + bl,
  where A · h adds to each node the rows of h at the sources of its incoming edges, each scaled by
  dinv[src] · dinv[dst], plus dinv² times its own row, dinv being the inverse square root of the in-degree plus
  one, and BN is the affine normalisation (t − mean) · rsqrt (var + ε) · γ + β.

  The implementation runs the two projections, the combine-and-normalise of the first layer and the
  combine-normalise-and-project of the second as four grid regions over ten blocks of 5000 nodes, with the
  gathers and scatters between them on the host; it computes dinv and the edge weights once, where the
  reference computes them once per layer. Nothing else differs: every arithmetic operation is applied in the
  same order to the same operands, the matrix unit's products into a zero accumulator are the host's products,
  a change of float format is the identity on the extended reals, and a reshape to a row or a column reads the
  same entries as the reference's broadcast. So the equality holds entry by entry for every input, finite or
  not, and no law of arithmetic beyond 0 + s = s is used.

  The proof follows the buffers: after each host stretch and each region, the buffers the next step reads hold
  the reference's stages of the launch arguments; after the last region the result array holds the
  reference's result.
-/
import proofs.«159547_j46755013984836_2_alg».proof.Defs
import proofs.«159547_j46755013984836_2_alg».proof.Proof.Gen.Kernel
import proofs.«159547_j46755013984836_2_alg».proof.Proof.Gen.Kernel.Frame
import proofs.«159547_j46755013984836_2_alg».proof.Proof.Gen.KernelIdeal
import proofs.«159547_j46755013984836_2_alg».proof.Proof.Gen.KernelIdeal.Frame
import proofs.«159547_j46755013984836_2_alg».proof.Proof.Gen.ReferenceIdeal
import proofs.«159547_j46755013984836_2_alg».proof.Proof.Gen.ReferenceIdeal.Read
import proofs.«159547_j46755013984836_2_alg».proof.Proof.Gen.Pre_finite_inputs
import proofs.«159547_j46755013984836_2_alg».proof.Proof.KernelRun
import proofs.«159547_j46755013984836_2_alg».proof.Proof.Stages3
import Idealize.ShloMosaic.Adequacy
import Idealize.ShloMosaic.Init

noncomputable section

namespace Cert.Proof

open Idealize.ShloMosaic Idealize.ShloMosaic.TcCoe Idealize.SL.Sem

/-- The implementation as printed runs to the end without a fault and leaves its arguments as launched. -/
theorem frame_k [Cert.Kernel.Facts] [Cert.Pre_finite_inputs.Facts] : Cert.frame_Kernel :=
  fun m ρ _ => Cert.Kernel.Gen.frame m ρ

/-- So does its reading on the extended reals. -/
theorem frame_ki [Cert.KernelIdeal.Facts] [Cert.Pre_finite_inputs.Facts] : Cert.frame_KernelIdeal :=
  fun m ρ _ => Cert.KernelIdeal.Gen.frame m ρ

/-- So does the reference: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the sixteen arguments both programs end with the same result array: the
    reference's last stage of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v137 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Whole.w7_v72 m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [Cert.ReferenceIdeal.Read.val_main_v137_eq, h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
